-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x64 .f32) (main_arg10 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S600000 32) (main_arg2 : IVec S600000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S2000x128 : Shape := ⟨2, ![2000, 128]⟩
abbrev S2000x1 : Shape := ⟨2, ![2000, 1]⟩
abbrev S600000x128 : Shape := ⟨2, ![600000, 128]⟩
abbrev S1x128 : Shape := ⟨2, ![1, 128]⟩
abbrev S50000x64 : Shape := ⟨2, ![50000, 64]⟩
abbrev S2000x64 : Shape := ⟨2, ![2000, 64]⟩
abbrev S600000x64 : Shape := ⟨2, ![600000, 64]⟩
abbrev S1x64 : Shape := ⟨2, ![1, 64]⟩

abbrev nBuf : Space → Nat
  | .hbm => 105
  | .vmem => 56
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S_, .f32⟩
  | .hbm, ⟨12, _⟩ => ⟨S600000, .f32⟩
  | .hbm, ⟨13, _⟩ => ⟨S_, .f32⟩
  | .hbm, ⟨14, _⟩ => ⟨S50000, .f32⟩
  | .hbm, ⟨15, _⟩ => ⟨S600000x1, .i32⟩
  | .hbm, ⟨16, _⟩ => ⟨S50000, .f32⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S600000x1, .i32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S128x128, .bf16⟩
  | .hbm, ⟨38, _⟩ => ⟨S50000x128, .f32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000x128, .f32⟩
  | .hbm, ⟨48, _⟩ => ⟨S_, .f32⟩
  | .hbm, ⟨49, _⟩ => ⟨S50000x128, .f32⟩
  | .hbm, ⟨50, _⟩ => ⟨S600000x1, .i32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S128x128, .bf16⟩
  | .hbm, ⟨55, _⟩ => ⟨S50000x128, .f32⟩
  | .hbm, ⟨56, _⟩ => ⟨S_, .i32⟩
  | .hbm, ⟨57, _⟩ => ⟨S600000, .i32⟩
  | .hbm, ⟨58, _⟩ => ⟨S600000, .i1⟩
  | .hbm, ⟨59, _⟩ => ⟨S_, .i32⟩
  | .hbm, ⟨60, _⟩ => ⟨S600000, .i32⟩
  | .hbm, ⟨61, _⟩ => ⟨S600000, .i32⟩
  | .hbm, ⟨62, _⟩ => ⟨S600000, .i32⟩
  | .hbm, ⟨63, _⟩ => ⟨S600000x1, .i32⟩
  | .hbm, ⟨64, _⟩ => ⟨S600000x128, .f32⟩
  | .hbm, ⟨65, _⟩ => ⟨S_, .f32⟩
  | .hbm, ⟨66, _⟩ => ⟨S50000x128, .f32⟩
  | .hbm, ⟨67, _⟩ => ⟨S600000x1, .i32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S128x128, .bf16⟩
  | .hbm, ⟨72, _⟩ => ⟨S50000x128, .f32⟩
  | .hbm, ⟨73, _⟩ => ⟨S_, .i32⟩
  | .hbm, ⟨74, _⟩ => ⟨S600000, .i32⟩
  | .hbm, ⟨75, _⟩ => ⟨S600000, .i1⟩
  | .hbm, ⟨76, _⟩ => ⟨S_, .i32⟩
  | .hbm, ⟨77, _⟩ => ⟨S600000, .i32⟩
  | .hbm, ⟨78, _⟩ => ⟨S600000, .i32⟩
  | .hbm, ⟨79, _⟩ => ⟨S600000, .i32⟩
  | .hbm, ⟨80, _⟩ => ⟨S600000x1, .i32⟩
  | .hbm, ⟨81, _⟩ => ⟨S600000x128, .f32⟩
  | .hbm, ⟨82, _⟩ => ⟨S_, .f32⟩
  | .hbm, ⟨83, _⟩ => ⟨S50000x128, .f32⟩
  | .hbm, ⟨84, _⟩ => ⟨S600000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S128x64, .bf16⟩
  | .hbm, ⟨89, _⟩ => ⟨S50000x64, .f32⟩
  | .hbm, ⟨90, _⟩ => ⟨S_, .i32⟩
  | .hbm, ⟨91, _⟩ => ⟨S600000, .i32⟩
  | .hbm, ⟨92, _⟩ => ⟨S600000, .i1⟩
  | .hbm, ⟨93, _⟩ => ⟨S_, .i32⟩
  | .hbm, ⟨94, _⟩ => ⟨S600000, .i32⟩
  | .hbm, ⟨95, _⟩ => ⟨S600000, .i32⟩
  | .hbm, ⟨96, _⟩ => ⟨S600000, .i32⟩
  | .hbm, ⟨97, _⟩ => ⟨S600000x1, .i32⟩
  | .hbm, ⟨98, _⟩ => ⟨S600000x64, .f32⟩
  | .hbm, ⟨99, _⟩ => ⟨S_, .f32⟩
  | .hbm, ⟨100, _⟩ => ⟨S50000x64, .f32⟩
  | .hbm, ⟨101, _⟩ => ⟨S600000x1, .i32⟩
  | .hbm, ⟨102, _⟩ => ⟨S50000x64, .f32⟩
  | .hbm, ⟨103, _⟩ => ⟨S1x64, .f32⟩
  | .hbm, ⟨104, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .bf16⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S128x128, .bf16⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x1, .f32⟩
  | .local _ .vmem, ⟨31, _⟩ => ⟨S2000x1, .f32⟩
  | .local _ .vmem, ⟨32, _⟩ => ⟨S128x128, .bf16⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x1, .f32⟩
  | .local _ .vmem, ⟨38, _⟩ => ⟨S2000x1, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x1, .f32⟩
  | .local _ .vmem, ⟨45, _⟩ => ⟨S2000x1, .f32⟩
  | .local _ .vmem, ⟨46, _⟩ => ⟨S128x64, .bf16⟩
  | .local _ .vmem, ⟨47, _⟩ => ⟨S2000x64, .f32⟩
  | .local _ .vmem, ⟨48, _⟩ => ⟨S2000x64, .f32⟩
  | .local _ .vmem, ⟨49, _⟩ => ⟨S2000x64, .f32⟩
  | .local _ .vmem, ⟨50, _⟩ => ⟨S2000x64, .f32⟩
  | .local _ .vmem, ⟨51, _⟩ => ⟨S2000x1, .f32⟩
  | .local _ .vmem, ⟨52, _⟩ => ⟨S2000x1, .f32⟩
  | .local _ .vmem, ⟨53, _⟩ => ⟨S1x64, .f32⟩
  | .local _ .vmem, ⟨54, _⟩ => ⟨S2000x64, .f32⟩
  | .local _ .vmem, ⟨55, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v8 : Ref sig .tc := ⟨.hbm, 28, rfl⟩
abbrev main_cst_4 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_5 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_7 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_8 : Ref sig .tc := ⟨.hbm, 56, rfl⟩
abbrev main_v31 : Ref sig .tc := ⟨.hbm, 57, rfl⟩
abbrev main_v32 : Ref sig .tc := ⟨.hbm, 58, rfl⟩
abbrev main_c_9 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_10 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_11 : Ref sig .tc := ⟨.hbm, 73, rfl⟩
abbrev main_v45 : Ref sig .tc := ⟨.hbm, 74, rfl⟩
abbrev main_v46 : Ref sig .tc := ⟨.hbm, 75, rfl⟩
abbrev main_c_12 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_13 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_c_14 : Ref sig .tc := ⟨.hbm, 90, rfl⟩
abbrev main_v59 : Ref sig .tc := ⟨.hbm, 91, rfl⟩
abbrev main_v60 : Ref sig .tc := ⟨.hbm, 92, rfl⟩
abbrev main_c_15 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_16 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg3_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg3_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem3_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem3_0 : DmaSem sig := 54
abbrev cc7_sem3_1 : DmaSem sig := 55

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x64 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S2000x64_S2000x64_0_0 : ∀ a, (![0, 0] : Fin 2 → Nat) a + S2000x64.size a ≤ S2000x64.size a
  h_S2000x64 : 0 < S2000x64.numel
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S600000x1_S600000_n_0_0_1_wf : ScatterDims.WF S50000 S600000x1 S600000 [] [0] [0] 1
  dot_S2000x128_S128x128_S2000x128_1_0_0_1_n_n_wf : DotDims.WF S2000x128 S128x128 S2000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x64_S2000x64_1_0_0_1_n_n_wf : DotDims.WF S2000x128 S128x64 S2000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .f32 = 32 ∨ (Rect.block (s := S50000x1) S2000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .bf16 = 32 ∨ (Rect.block (s := S128x128) S128x128.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S50000x1.size a
  hwx5_1 : ∀ i : grid5.Coords, EltTy.bits .f32 = 32 ∨ (Rect.block (s := S50000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S50000x1.size a
  hwx6_1 : ∀ i : grid6.Coords, EltTy.bits .f32 = 32 ∨ (Rect.block (s := S50000x1) S2000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x64.size a ≤ S128x64.size a
  hwx6_2 : ∀ i : grid6.Coords, EltTy.bits .bf16 = 32 ∨ (Rect.block (s := S128x64) S128x64.size (cc6_transform_2 i) (hinb6_2 i)).WholeWords (EltTy.packing .bf16)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x64.size a ≤ S50000x64.size a
  hwx6_3 : ∀ i : grid6.Coords, EltTy.bits .f32 = 32 ∨ (Rect.block (s := S50000x64) S2000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S50000x64.size a
  hwx7_0 : ∀ i : grid7.Coords, EltTy.bits .f32 = 32 ∨ (Rect.block (s := S50000x64) S2000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x1.size a ≤ S50000x1.size a
  hwx7_1 : ∀ i : grid7.Coords, EltTy.bits .f32 = 32 ∨ (Rect.block (s := S50000x1) S2000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x64.size a ≤ S50000x64.size a
  hwx7_3 : ∀ i : grid7.Coords, EltTy.bits .f32 = 32 ∨ (Rect.block (s := S50000x64) S2000x64.size (cc7_transform_3 i) (hinb7_3 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v40) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v41) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v42) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v11) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v43) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v44) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v54) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v55) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v56) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v56) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v11) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v57) S128x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v58) S2000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v68) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v14) S2000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v69) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v70) S2000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S50000x64 : Shape := ⟨2, ![50000, 64]⟩
abbrev S600000x64 : Shape := ⟨2, ![600000, 64]⟩
abbrev S1x64 : Shape := ⟨2, ![1, 64]⟩

abbrev nBuf : Space → Nat
  | .hbm => 130
  | .vmem => 0
  | .smem => 0
  | _ => 0

abbrev hbmTy0_0 (i : Nat) : BufTy := match i % 128 with
  | 0 => ⟨S50000x128, .f32⟩
  | 1 => ⟨S600000, .i32⟩
  | 2 => ⟨S600000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S_, .f32⟩
  | 12 => ⟨S600000, .f32⟩
  | 13 => ⟨S_, .f32⟩
  | 14 => ⟨S50000, .f32⟩
  | 15 => ⟨S600000x1, .i32⟩
  | 16 => ⟨S50000, .f32⟩
  | 17 => ⟨S_, .f32⟩
  | 18 => ⟨S_, .f32⟩
  | 19 => ⟨S50000, .f32⟩
  | 20 => ⟨S50000, .f32⟩
  | 21 => ⟨S_, .f32⟩
  | 22 => ⟨S50000, .f32⟩
  | 23 => ⟨S600000x1, .i32⟩
  | 24 => ⟨S50000, .f32⟩
  | 25 => ⟨S_, .f32⟩
  | 26 => ⟨S_, .f32⟩
  | 27 => ⟨S50000, .f32⟩
  | 28 => ⟨S50000, .f32⟩
  | 29 => ⟨S_, .f32⟩
  | 30 => ⟨S50000, .f32⟩
  | 31 => ⟨S50000, .f32⟩
  | 32 => ⟨S50000x1, .f32⟩
  | 33 => ⟨S_, .f32⟩
  | 34 => ⟨S50000, .f32⟩
  | 35 => ⟨S50000, .f32⟩
  | 36 => ⟨S50000x1, .f32⟩
  | 37 => ⟨S50000x128, .f32⟩
  | 38 => ⟨S50000x128, .f32⟩
  | 39 => ⟨S50000x128, .f32⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S600000x128, .f32⟩
  | 49 => ⟨S_, .f32⟩
  | 50 => ⟨S50000x128, .f32⟩
  | 51 => ⟨S600000x1, .i32⟩
  | 52 => ⟨S50000x128, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S50000x128, .f32⟩
  | 62 => ⟨S50000x128, .f32⟩
  | 63 => ⟨S50000x128, .f32⟩
  | 64 => ⟨S_, .i32⟩
  | 65 => ⟨S600000, .i32⟩
  | 66 => ⟨S600000, .i1⟩
  | 67 => ⟨S_, .i32⟩
  | 68 => ⟨S600000, .i32⟩
  | 69 => ⟨S600000, .i32⟩
  | 70 => ⟨S600000, .i32⟩
  | 71 => ⟨S600000x1, .i32⟩
  | 72 => ⟨S600000x128, .f32⟩
  | 73 => ⟨S_, .f32⟩
  | 74 => ⟨S50000x128, .f32⟩
  | 75 => ⟨S600000x1, .i32⟩
  | 76 => ⟨S50000x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S50000x128, .f32⟩
  | 86 => ⟨S50000x128, .f32⟩
  | 87 => ⟨S50000x128, .f32⟩
  | 88 => ⟨S_, .i32⟩
  | 89 => ⟨S600000, .i32⟩
  | 90 => ⟨S600000, .i1⟩
  | 91 => ⟨S_, .i32⟩
  | 92 => ⟨S600000, .i32⟩
  | 93 => ⟨S600000, .i32⟩
  | 94 => ⟨S600000, .i32⟩
  | 95 => ⟨S600000x1, .i32⟩
  | 96 => ⟨S600000x128, .f32⟩
  | 97 => ⟨S_, .f32⟩
  | 98 => ⟨S50000x128, .f32⟩
  | 99 => ⟨S600000x1, .i32⟩
  | 100 => ⟨S50000x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S50000x128, .f32⟩
  | 110 => ⟨S50000x128, .f32⟩
  | 111 => ⟨S50000x64, .f32⟩
  | 112 => ⟨S_, .i32⟩
  | 113 => ⟨S600000, .i32⟩
  | 114 => ⟨S600000, .i1⟩
  | 115 => ⟨S_, .i32⟩
  | 116 => ⟨S600000, .i32⟩
  | 117 => ⟨S600000, .i32⟩
  | 118 => ⟨S600000, .i32⟩
  | 119 => ⟨S600000x1, .i32⟩
  | 120 => ⟨S600000x64, .f32⟩
  | 121 => ⟨S_, .f32⟩
  | 122 => ⟨S50000x64, .f32⟩
  | 123 => ⟨S600000x1, .i32⟩
  | 124 => ⟨S50000x64, .f32⟩
  | 125 => ⟨S50000x64, .f32⟩
  | 126 => ⟨S50000x64, .f32⟩
  | 127 => ⟨S1x64, .f32⟩
  | _ => ⟨S50000x128, .f32⟩

abbrev hbmTy0_1 (i : Nat) : BufTy := match i % 128 with
  | 0 => ⟨S50000x64, .f32⟩
  | 1 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v8 : Ref sig .tc := ⟨.hbm, 28, rfl⟩
abbrev main_cst_4 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_5 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_c_6 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_7 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call2_cst : Ref sig .tc := ⟨.hbm, 58, rfl⟩
abbrev main_call2_v0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_8 : Ref sig .tc := ⟨.hbm, 64, rfl⟩
abbrev main_v37 : Ref sig .tc := ⟨.hbm, 65, rfl⟩
abbrev main_v38 : Ref sig .tc := ⟨.hbm, 66, rfl⟩
abbrev main_c_9 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_10 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_call3_cst : Ref sig .tc := ⟨.hbm, 82, rfl⟩
abbrev main_call3_v0 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_c_11 : Ref sig .tc := ⟨.hbm, 88, rfl⟩
abbrev main_v56 : Ref sig .tc := ⟨.hbm, 89, rfl⟩
abbrev main_v57 : Ref sig .tc := ⟨.hbm, 90, rfl⟩
abbrev main_c_12 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_13 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_call4_cst : Ref sig .tc := ⟨.hbm, 106, rfl⟩
abbrev main_call4_v0 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_14 : Ref sig .tc := ⟨.hbm, 112, rfl⟩
abbrev main_v75 : Ref sig .tc := ⟨.hbm, 113, rfl⟩
abbrev main_v76 : Ref sig .tc := ⟨.hbm, 114, rfl⟩
abbrev main_c_15 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_16 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x64_S50000x64_1_0_0_1_n_n_wf : DotDims.WF S50000x128 S128x64 S50000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf

class Facts : Prop extends Facts₀ where

variable [Facts]
-- ==== Proof.Net.lean ====
/-
  The network both programs compute, written once as array operations at the ideal values. A graph of 50000 nodes and
  600000 edges (source and target node of each edge); per node two factors, the inverse square roots of its out-degree
  and in-degree (each degree at least one); four layers, each: scale every node's feature row by the node's out-degree
  factor and multiply by the layer's weights; for every edge fetch the source node's row and add it into the target
  node's row; scale every node's row by its in-degree factor and add the bias; and, except after the last layer, clamp
  below at zero. The first three layers keep 128 features, the last has 64.
-/
import proofs.«134169_j66245575573518_1_alg».proof.Proof.Gen.ReferenceIdeal
import Idealize.ShloMosaic.PureOps.Ideal

noncomputable section

namespace Cert.Gcn

open Idealize.ShloMosaic Cert.ReferenceIdeal Cert.ReferenceIdeal.Gen

/-- The dense half of a layer with 128 output features: row `a` of the features times the node's factor, times the
    weights. The weights may come in any float format: at the ideal values a format is no information. -/
def lin128 {φ : FTy} (h : FVec Ideal S50000x128 .f32) (n : FVec Ideal S50000x1 .f32) (w : FVec Ideal S128x128 φ) :
    FVec Ideal S50000x128 .f32 :=
  Host.dotGeneral dot_S50000x128_S128x128_S50000x128_1_0_0_1_n_n none
    (mulf h (broadcastInDim S50000x128 ![0, 1] bcast_S50000x1_S50000x128_0_1 n)) w

/-- The dense half of the last layer: 64 output features. -/
def lin64 {φ : FTy} (h : FVec Ideal S50000x128 .f32) (n : FVec Ideal S50000x1 .f32) (w : FVec Ideal S128x64 φ) :
    FVec Ideal S50000x64 .f32 :=
  Host.dotGeneral dot_S50000x128_S128x64_S50000x64_1_0_0_1_n_n none
    (mulf h (broadcastInDim S50000x128 ![0, 1] bcast_S50000x1_S50000x128_0_1 n)) w

/-- After aggregation, 128 features: each node's row times the node's factor, plus the bias row, clamped below at zero. -/
def post128 (a : FVec Ideal S50000x128 .f32) (n : FVec Ideal S50000x1 .f32) (b : FVec Ideal S1x128 .f32) :
    FVec Ideal S50000x128 .f32 :=
  maximumf (addf (mulf a (broadcastInDim S50000x128 ![0, 1] bcast_S50000x1_S50000x128_0_1 n))
      (broadcastInDim S50000x128 ![0, 1] bcast_S1x128_S50000x128_0_1 b))
    (broadcastInDim S50000x128 ![] bcast_S_S50000x128 (constant S_ .f32 0x00000000#32))

/-- After the last aggregation, 64 features and no clamp. -/
def post64 (a : FVec Ideal S50000x64 .f32) (n : FVec Ideal S50000x1 .f32) (b : FVec Ideal S1x64 .f32) :
    FVec Ideal S50000x64 .f32 :=
  addf (mulf a (broadcastInDim S50000x64 ![0, 1] bcast_S50000x1_S50000x64_0_1 n))
    (broadcastInDim S50000x64 ![0, 1] bcast_S1x64_S50000x64_0_1 b)

/-- A list of node numbers as the one-column index array of a row fetch, a negative number counted from the end. -/
def rowIndex (src : (⟨S600000, .i32⟩ : BufTy).Contents (Elt Ideal)) : (⟨S600000x1, .i32⟩ : BufTy).Contents (Elt Ideal) :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 50000#32))) src)

/-- The sparse half of a layer, 128 features: for every edge the source node's row, added into the target node's row of
    an array of zeros. -/
def agg128 (x : FVec Ideal S50000x128 .f32) (src dst : (⟨S600000, .i32⟩ : BufTy).Contents (Elt Ideal)) : FVec Ideal S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst)
    (Host.gather gather_S50000x128_S600000x1_S600000x128_1_0_n_n_0_1_1128 x (rowIndex src))

/-- The sparse half of the last layer, 64 features. -/
def agg64 (x : FVec Ideal S50000x64 .f32) (src dst : (⟨S600000, .i32⟩ : BufTy).Contents (Elt Ideal)) : FVec Ideal S50000x64 .f32 :=
  Host.scatterAdd scatter_S50000x64_S600000x1_S600000x64_1_0_0_1
    (broadcastInDim S50000x64 ![] bcast_S_S50000x64 (constant S_ .f32 0x00000000#32))
    (broadcastInDim S600000x1 ![0] bcast_S600000_S600000x1_0 dst)
    (Host.gather gather_S50000x64_S600000x1_S600000x64_1_0_n_n_0_1_164 x (rowIndex src))

/-- A node's factor from one end of every edge: count the edges at each node, at least one, to the power −1/2; as a
    column. -/
def degFactor (idx : (⟨S600000, .i32⟩ : BufTy).Contents (Elt Ideal)) : FVec Ideal S50000x1 .f32 :=
  broadcastInDim S50000x1 ![0] bcast_S50000_S50000x1_0
    (Host.powf
      (maximumf (broadcastInDim S50000 ![] bcast_S_S50000 (id (constant S_ .f32 0x3F800000#32)))
        (Host.scatterAdd scatter_S50000_S600000x1_S600000_n_0_0_1
          (broadcastInDim S50000 ![] bcast_S_S50000 (constant S_ .f32 0x00000000#32))
          (broadcastInDim S600000x1 ![0] bcast_S600000_S600000x1_0 idx)
          (broadcastInDim S600000 ![] bcast_S_S600000 (constant S_ .f32 0x3F800000#32))))
      (broadcastInDim S50000 ![] bcast_S_S50000 (constant S_ .f32 0xBF000000#32)))

/-- A bias vector as a one-row array. -/
def row128 (b : FVec Ideal S128 .f32) : FVec Ideal S1x128 .f32 := broadcastInDim S1x128 ![1] bcast_S128_S1x128_1 b
def row64 (b : FVec Ideal S64 .f32) : FVec Ideal S1x64 .f32 := broadcastInDim S1x64 ![1] bcast_S64_S1x64_1 b

/-- The four layers. -/
def net (h : FVec Ideal S50000x128 .f32) (src dst : (⟨S600000, .i32⟩ : BufTy).Contents (Elt Ideal))
    (w0 : FVec Ideal S128x128 .f32) (b0 : FVec Ideal S128 .f32) (w1 : FVec Ideal S128x128 .f32) (b1 : FVec Ideal S128 .f32)
    (w2 : FVec Ideal S128x128 .f32) (b2 : FVec Ideal S128 .f32) (w3 : FVec Ideal S128x64 .f32) (b3 : FVec Ideal S64 .f32) :
    FVec Ideal S50000x64 .f32 :=
  post64 (agg64 (lin64
    (post128 (agg128 (lin128
      (post128 (agg128 (lin128
        (post128 (agg128 (lin128 h (degFactor src) w0) src dst) (degFactor dst) (row128 b0))
        (degFactor src) w1) src dst) (degFactor dst) (row128 b1))
      (degFactor src) w2) src dst) (degFactor dst) (row128 b2))
    (degFactor src) w3) src dst) (degFactor dst) (row64 b3)

end Cert.Gcn

end
-- ==== Proof.RunNamed.lean ====
/-
  The kernel program's run, with its result named. The program is eight kernel regions among stretches of host
  operations; the buffers' contents at each boundary are the fold `W0 … W20` from the launch memory (a stretch applies
  its operations, a region replaces its output array by what its grid points write back). Every weakly fair execution
  terminates with the result buffer at the last boundary's contents and the eleven arguments as launched.
-/
import proofs.«134169_j66245575573518_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer holding the
    last boundary's contents `W20` and every argument array as launched. -/
theorem run_named : θ_run defs (onTc (τ := τ) (main (F := F))) ⟨m, fun _ => 0, ρ⟩ (fun r => ∀ c : Dev nD,
      r.2.mem ((c.tc : Thread nD τ).loc main_v70) = W20 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v70 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c)⟩)

end Cert.KernelIdeal.Hand

end
-- ==== Proof.Layout.lean ====
/-
  Two ways the two programs spell one array. A bias vector reshaped to a one-row array and the same vector broadcast to
  a one-row array hold the same entries; a weight array narrowed to a shorter float format holds, at the ideal values,
  the entries it held (the format of an ideal value is no information).
-/
import proofs.«134169_j66245575573518_1_alg».proof.Proof.Net
import proofs.«134169_j66245575573518_1_alg».proof.Proof.Gen.KernelIdeal
import Idealize.ShloMosaic.Lib.Pipeline.Value
import Idealize.ShloMosaic.Lib.ValueIdx

noncomputable section

namespace Cert.KernelIdeal.Hand

open Idealize.ShloMosaic Idealize.ShloMosaic.ValueIdx Cert.KernelIdeal Cert.KernelIdeal.Gen

/-- A 128-entry bias vector reshaped to one row is that vector broadcast to one row. -/
theorem row128_of_reshape (b : FVec Ideal S128 .f32) :
    shapeCast S1x128 b shapeCasts_S128_S1x128 = Cert.Gcn.row128 b := by
  funext j
  obtain ⟨p, q, rfl⟩ : ∃ (p : Fin 1) (q : Fin 128), j = ix2 p q := ⟨j 0, j 1, eq_ix2 j⟩
  unfold Cert.Gcn.row128
  rw [shapeCast_apply b _ (ix2 p q) (ix1 q) (by
        rw [Shape.rowMajor_val_one, Shape.rowMajor_val_two]
        show q.val = p.val * 128 + q.val
        have := p.isLt; omega),
    broadcastInDim_apply _ _ b (ix2 p q) (ix1 q) (fun d => by match d with | ⟨0, _⟩ => rfl)]

/-- A 64-entry bias vector reshaped to one row is that vector broadcast to one row. -/
theorem row64_of_reshape (b : FVec Ideal S64 .f32) :
    shapeCast S1x64 b shapeCasts_S64_S1x64 = Cert.Gcn.row64 b := by
  funext j
  obtain ⟨p, q, rfl⟩ : ∃ (p : Fin 1) (q : Fin 64), j = ix2 p q := ⟨j 0, j 1, eq_ix2 j⟩
  unfold Cert.Gcn.row64
  rw [shapeCast_apply b _ (ix2 p q) (ix1 q) (by
        rw [Shape.rowMajor_val_one, Shape.rowMajor_val_two]
        show q.val = p.val * 64 + q.val
        have := p.isLt; omega),
    broadcastInDim_apply _ _ b (ix2 p q) (ix1 q) (fun d => by match d with | ⟨0, _⟩ => rfl)]

/-- The dense half of a layer does not see the weights' format: 128 output features. -/
theorem lin128_truncf (h : FVec Ideal Cert.ReferenceIdeal.S50000x128 .f32) (n : FVec Ideal Cert.ReferenceIdeal.S50000x1 .f32) (w : FVec Ideal S128x128 .f32) :
    Cert.Gcn.lin128 (φ := .bf16) h n (truncf .bf16 w bitsLt_bf16_f32) = Cert.Gcn.lin128 (φ := .f32) h n w := rfl

/-- The dense half of a layer does not see the weights' format: 64 output features. -/
theorem lin64_truncf (h : FVec Ideal Cert.ReferenceIdeal.S50000x128 .f32) (n : FVec Ideal Cert.ReferenceIdeal.S50000x1 .f32) (w : FVec Ideal S128x64 .f32) :
    Cert.Gcn.lin64 (φ := .bf16) h n (truncf .bf16 w bitsLt_bf16_f32) = Cert.Gcn.lin64 (φ := .f32) h n w := rfl

end Cert.KernelIdeal.Hand

end
-- ==== Proof.Entry.lean ====
/-
  The kernel program's buffers when its first kernel region is entered. The host operations before it count the edges
  at each node from either end, clamp the counts at one, raise them to the power −1/2 and lay them out as columns (the
  two degree factors), and narrow the first layer's weights; they write none of the arguments.
-/
import proofs.«134169_j66245575573518_1_alg».proof.Proof.Gen.KernelIdeal.Frame
import proofs.«134169_j66245575573518_1_alg».proof.Proof.Net

set_option maxRecDepth 16384
set_option maxHeartbeats 2000000
set_option Elab.async false

noncomputable section

namespace Cert.KernelIdeal.Hand

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The two clamps, without the call's wrapping

Each degree vector is clamped at one by a called function; its three operations carry their values through the call's
typed references. Read at the buffers' own types they are three plain operations. -/

/-- The clamp of a degree vector at one, written with plain operations. -/
theorem clip0_ops : (hostOps0_1 : List (HloOp τ sig (Elt Ideal))) =
    [ StableHlo.unary main_cst_1 main_call0_v0 (id : (⟨S_, .f32⟩ : BufTy).Contents (Elt Ideal) → (⟨S_, .f32⟩ : BufTy).Contents (Elt Ideal)),
      StableHlo.unary main_call0_v0 main_call0_v1 (broadcastInDim S50000 ![] bcast_S_S50000 : (⟨S_, .f32⟩ : BufTy).Contents (Elt Ideal) → (⟨S50000, .f32⟩ : BufTy).Contents (Elt Ideal)),
      StableHlo.binary main_call0_v1 main_v3 main_v4 (maximumf (F := Ideal) (s := S50000) (φ := .f32) : (⟨S50000, .f32⟩ : BufTy).Contents (Elt Ideal) → (⟨S50000, .f32⟩ : BufTy).Contents (Elt Ideal) → (⟨S50000, .f32⟩ : BufTy).Contents (Elt Ideal)) ] := rfl

/-- The clamp of a degree vector at one, written with plain operations. -/
theorem clip1_ops : (hostOps0_3 : List (HloOp τ sig (Elt Ideal))) =
    [ StableHlo.unary main_cst_3 main_call1_v0 (id : (⟨S_, .f32⟩ : BufTy).Contents (Elt Ideal) → (⟨S_, .f32⟩ : BufTy).Contents (Elt Ideal)),
      StableHlo.unary main_call1_v0 main_call1_v1 (broadcastInDim S50000 ![] bcast_S_S50000 : (⟨S_, .f32⟩ : BufTy).Contents (Elt Ideal) → (⟨S50000, .f32⟩ : BufTy).Contents (Elt Ideal)),
      StableHlo.binary main_call1_v1 main_v7 main_v8 (maximumf (F := Ideal) (s := S50000) (φ := .f32) : (⟨S50000, .f32⟩ : BufTy).Contents (Elt Ideal) → (⟨S50000, .f32⟩ : BufTy).Contents (Elt Ideal) → (⟨S50000, .f32⟩ : BufTy).Contents (Elt Ideal)) ] := rfl

/-! ## The contents the first region is entered with -/

theorem entry_arg0 (c : Dev nD) : W5 m ρ c (Proc.devRef .tc main_arg0) = (m ((c : Thread nD τ).loc main_arg0)) := by
  show StableHlo.after hostOps0_4 (StableHlo.after hostOps0_3 (StableHlo.after hostOps0_2 (StableHlo.after hostOps0_1 (StableHlo.after hostOps0 (W0 m ρ c))))) (Proc.devRef .tc main_arg0) = _
  rw [clip0_ops, clip1_ops]
  after_results_simp <;> rfl

theorem entry_arg1 (c : Dev nD) : W5 m ρ c (Proc.devRef .tc main_arg1) = (m ((c : Thread nD τ).loc main_arg1)) := by
  show StableHlo.after hostOps0_4 (StableHlo.after hostOps0_3 (StableHlo.after hostOps0_2 (StableHlo.after hostOps0_1 (StableHlo.after hostOps0 (W0 m ρ c))))) (Proc.devRef .tc main_arg1) = _
  rw [clip0_ops, clip1_ops]
  after_results_simp <;> rfl

theorem entry_arg2 (c : Dev nD) : W5 m ρ c (Proc.devRef .tc main_arg2) = (m ((c : Thread nD τ).loc main_arg2)) := by
  show StableHlo.after hostOps0_4 (StableHlo.after hostOps0_3 (StableHlo.after hostOps0_2 (StableHlo.after hostOps0_1 (StableHlo.after hostOps0 (W0 m ρ c))))) (Proc.devRef .tc main_arg2) = _
  rw [clip0_ops, clip1_ops]
  after_results_simp <;> rfl

theorem entry_arg4 (c : Dev nD) : W5 m ρ c (Proc.devRef .tc main_arg4) = (m ((c : Thread nD τ).loc main_arg4)) := by
  show StableHlo.after hostOps0_4 (StableHlo.after hostOps0_3 (StableHlo.after hostOps0_2 (StableHlo.after hostOps0_1 (StableHlo.after hostOps0 (W0 m ρ c))))) (Proc.devRef .tc main_arg4) = _
  rw [clip0_ops, clip1_ops]
  after_results_simp <;> rfl

theorem entry_arg5 (c : Dev nD) : W5 m ρ c (Proc.devRef .tc main_arg5) = (m ((c : Thread nD τ).loc main_arg5)) := by
  show StableHlo.after hostOps0_4 (StableHlo.after hostOps0_3 (StableHlo.after hostOps0_2 (StableHlo.after hostOps0_1 (StableHlo.after hostOps0 (W0 m ρ c))))) (Proc.devRef .tc main_arg5) = _
  rw [clip0_ops, clip1_ops]
  after_results_simp <;> rfl

theorem entry_arg6 (c : Dev nD) : W5 m ρ c (Proc.devRef .tc main_arg6) = (m ((c : Thread nD τ).loc main_arg6)) := by
  show StableHlo.after hostOps0_4 (StableHlo.after hostOps0_3 (StableHlo.after hostOps0_2 (StableHlo.after hostOps0_1 (StableHlo.after hostOps0 (W0 m ρ c))))) (Proc.devRef .tc main_arg6) = _
  rw [clip0_ops, clip1_ops]
  after_results_simp <;> rfl

theorem entry_arg7 (c : Dev nD) : W5 m ρ c (Proc.devRef .tc main_arg7) = (m ((c : Thread nD τ).loc main_arg7)) := by
  show StableHlo.after hostOps0_4 (StableHlo.after hostOps0_3 (StableHlo.after hostOps0_2 (StableHlo.after hostOps0_1 (StableHlo.after hostOps0 (W0 m ρ c))))) (Proc.devRef .tc main_arg7) = _
  rw [clip0_ops, clip1_ops]
  after_results_simp <;> rfl

theorem entry_arg8 (c : Dev nD) : W5 m ρ c (Proc.devRef .tc main_arg8) = (m ((c : Thread nD τ).loc main_arg8)) := by
  show StableHlo.after hostOps0_4 (StableHlo.after hostOps0_3 (StableHlo.after hostOps0_2 (StableHlo.after hostOps0_1 (StableHlo.after hostOps0 (W0 m ρ c))))) (Proc.devRef .tc main_arg8) = _
  rw [clip0_ops, clip1_ops]
  after_results_simp <;> rfl

theorem entry_arg9 (c : Dev nD) : W5 m ρ c (Proc.devRef .tc main_arg9) = (m ((c : Thread nD τ).loc main_arg9)) := by
  show StableHlo.after hostOps0_4 (StableHlo.after hostOps0_3 (StableHlo.after hostOps0_2 (StableHlo.after hostOps0_1 (StableHlo.after hostOps0 (W0 m ρ c))))) (Proc.devRef .tc main_arg9) = _
  rw [clip0_ops, clip1_ops]
  after_results_simp <;> rfl

theorem entry_arg10 (c : Dev nD) : W5 m ρ c (Proc.devRef .tc main_arg10) = (m ((c : Thread nD τ).loc main_arg10)) := by
  show StableHlo.after hostOps0_4 (StableHlo.after hostOps0_3 (StableHlo.after hostOps0_2 (StableHlo.after hostOps0_1 (StableHlo.after hostOps0 (W0 m ρ c))))) (Proc.devRef .tc main_arg10) = _
  rw [clip0_ops, clip1_ops]
  after_results_simp <;> rfl

theorem entry_v11 (c : Dev nD) : W5 m ρ c (Proc.devRef .tc main_v11) = Cert.Gcn.degFactor (m ((c : Thread nD τ).loc main_arg1)) := by
  show StableHlo.after hostOps0_4 (StableHlo.after hostOps0_3 (StableHlo.after hostOps0_2 (StableHlo.after hostOps0_1 (StableHlo.after hostOps0 (W0 m ρ c))))) (Proc.devRef .tc main_v11) = _
  rw [clip0_ops, clip1_ops]
  after_results_simp <;> rfl

theorem entry_v14 (c : Dev nD) : W5 m ρ c (Proc.devRef .tc main_v14) = Cert.Gcn.degFactor (m ((c : Thread nD τ).loc main_arg2)) := by
  show StableHlo.after hostOps0_4 (StableHlo.after hostOps0_3 (StableHlo.after hostOps0_2 (StableHlo.after hostOps0_1 (StableHlo.after hostOps0 (W0 m ρ c))))) (Proc.devRef .tc main_v14) = _
  rw [clip0_ops, clip1_ops]
  after_results_simp <;> rfl

theorem entry_v15 (c : Dev nD) : W5 m ρ c (Proc.devRef .tc main_v15) = (truncf .bf16 (m ((c : Thread nD τ).loc main_arg3)) bitsLt_bf16_f32 : FVec Ideal S128x128 .bf16) := by
  show StableHlo.after hostOps0_4 (StableHlo.after hostOps0_3 (StableHlo.after hostOps0_2 (StableHlo.after hostOps0_1 (StableHlo.after hostOps0 (W0 m ρ c))))) (Proc.devRef .tc main_v15) = _
  rw [clip0_ops, clip1_ops]
  after_results_simp <;> rfl

end Cert.KernelIdeal.Hand

end
-- ==== Proof.Kept.lean ====
/-
  What nothing writes once the first kernel region is entered: the edge lists, the biases, the later layers' weights and
  the two degree-factor columns. A kernel region changes its result array only; a later host stretch writes its own
  results only. So at every later boundary each of these buffers holds what it held at the first region's entry.
-/
import proofs.«134169_j66245575573518_1_alg».proof.Proof.Gen.KernelIdeal.Frame
import proofs.«134169_j66245575573518_1_alg».proof.Proof.Net
import proofs.«134169_j66245575573518_1_alg».proof.Proof.Entry

set_option maxRecDepth 16384
set_option maxHeartbeats 2000000
set_option Elab.async false

noncomputable section

namespace Cert.KernelIdeal.Hand

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## What nothing writes after the first region is entered -/

/-- The buffers read again and again: the edge lists, the biases and later weights, and the two factor columns. -/
def Kept (b : Ref sig .tc) : Prop :=
  b = main_arg1 ∨ b = main_arg2 ∨ b = main_arg4 ∨ b = main_arg5 ∨ b = main_arg6 ∨ b = main_arg7 ∨ b = main_arg8 ∨ b = main_arg9 ∨ b = main_arg10 ∨ b = main_v11 ∨ b = main_v14

/-- Region 0 leaves every kept buffer as it found it: it reads one of the factor columns through an input window,
    which is never written back, and the others are none of its arrays. -/
theorem pass0 (c : Dev nD) (b : Ref sig .tc) (hb : Kept b) : W6 m ρ c (Proc.devRef .tc b) = W5 m ρ c (Proc.devRef .tc b) := by
  rcases hb with rfl | rfl | rfl | rfl | rfl | rfl | rfl | rfl | rfl | rfl | rfl
  · exact W6_of_ne m ρ c main_arg1 (by decide)
  · exact W6_of_ne m ρ c main_arg2 (by decide)
  · exact W6_of_ne m ρ c main_arg4 (by decide)
  · exact W6_of_ne m ρ c main_arg5 (by decide)
  · exact W6_of_ne m ρ c main_arg6 (by decide)
  · exact W6_of_ne m ρ c main_arg7 (by decide)
  · exact W6_of_ne m ρ c main_arg8 (by decide)
  · exact W6_of_ne m ρ c main_arg9 (by decide)
  · exact W6_of_ne m ρ c main_arg10 (by decide)
  · exact (W6_arr m ρ c 1).trans (((dat0 (V5 m ρ) c).arrAt_in 1 rfl _).trans (A_eq0 (V5 m ρ) c 1))
  · exact W6_of_ne m ρ c main_v14 (by decide)

/-- Region 1 leaves every kept buffer as it found it: it reads one of the factor columns through an input window,
    which is never written back, and the others are none of its arrays. -/
theorem pass1 (c : Dev nD) (b : Ref sig .tc) (hb : Kept b) : W8 m ρ c (Proc.devRef .tc b) = W7 m ρ c (Proc.devRef .tc b) := by
  rcases hb with rfl | rfl | rfl | rfl | rfl | rfl | rfl | rfl | rfl | rfl | rfl
  · exact W8_of_ne m ρ c main_arg1 (by decide)
  · exact W8_of_ne m ρ c main_arg2 (by decide)
  · exact W8_of_ne m ρ c main_arg4 (by decide)
  · exact W8_of_ne m ρ c main_arg5 (by decide)
  · exact W8_of_ne m ρ c main_arg6 (by decide)
  · exact W8_of_ne m ρ c main_arg7 (by decide)
  · exact W8_of_ne m ρ c main_arg8 (by decide)
  · exact W8_of_ne m ρ c main_arg9 (by decide)
  · exact W8_of_ne m ρ c main_arg10 (by decide)
  · exact W8_of_ne m ρ c main_v11 (by decide)
  · exact (W8_arr m ρ c 1).trans (((dat1 (V7 m ρ) c).arrAt_in 1 rfl _).trans (A_eq1 (V7 m ρ) c 1))

/-- Region 2 leaves every kept buffer as it found it: it reads one of the factor columns through an input window,
    which is never written back, and the others are none of its arrays. -/
theorem pass2 (c : Dev nD) (b : Ref sig .tc) (hb : Kept b) : W10 m ρ c (Proc.devRef .tc b) = W9 m ρ c (Proc.devRef .tc b) := by
  rcases hb with rfl | rfl | rfl | rfl | rfl | rfl | rfl | rfl | rfl | rfl | rfl
  · exact W10_of_ne m ρ c main_arg1 (by decide)
  · exact W10_of_ne m ρ c main_arg2 (by decide)
  · exact W10_of_ne m ρ c main_arg4 (by decide)
  · exact W10_of_ne m ρ c main_arg5 (by decide)
  · exact W10_of_ne m ρ c main_arg6 (by decide)
  · exact W10_of_ne m ρ c main_arg7 (by decide)
  · exact W10_of_ne m ρ c main_arg8 (by decide)
  · exact W10_of_ne m ρ c main_arg9 (by decide)
  · exact W10_of_ne m ρ c main_arg10 (by decide)
  · exact (W10_arr m ρ c 1).trans (((dat2 (V9 m ρ) c).arrAt_in 1 rfl _).trans (A_eq2 (V9 m ρ) c 1))
  · exact W10_of_ne m ρ c main_v14 (by decide)

/-- Region 3 leaves every kept buffer as it found it: it reads one of the factor columns through an input window,
    which is never written back, and the others are none of its arrays. -/
theorem pass3 (c : Dev nD) (b : Ref sig .tc) (hb : Kept b) : W12 m ρ c (Proc.devRef .tc b) = W11 m ρ c (Proc.devRef .tc b) := by
  rcases hb with rfl | rfl | rfl | rfl | rfl | rfl | rfl | rfl | rfl | rfl | rfl
  · exact W12_of_ne m ρ c main_arg1 (by decide)
  · exact W12_of_ne m ρ c main_arg2 (by decide)
  · exact W12_of_ne m ρ c main_arg4 (by decide)
  · exact W12_of_ne m ρ c main_arg5 (by decide)
  · exact W12_of_ne m ρ c main_arg6 (by decide)
  · exact W12_of_ne m ρ c main_arg7 (by decide)
  · exact W12_of_ne m ρ c main_arg8 (by decide)
  · exact W12_of_ne m ρ c main_arg9 (by decide)
  · exact W12_of_ne m ρ c main_arg10 (by decide)
  · exact W12_of_ne m ρ c main_v11 (by decide)
  · exact (W12_arr m ρ c 1).trans (((dat3 (V11 m ρ) c).arrAt_in 1 rfl _).trans (A_eq3 (V11 m ρ) c 1))

/-- Region 4 leaves every kept buffer as it found it: it reads one of the factor columns through an input window,
    which is never written back, and the others are none of its arrays. -/
theorem pass4 (c : Dev nD) (b : Ref sig .tc) (hb : Kept b) : W14 m ρ c (Proc.devRef .tc b) = W13 m ρ c (Proc.devRef .tc b) := by
  rcases hb with rfl | rfl | rfl | rfl | rfl | rfl | rfl | rfl | rfl | rfl | rfl
  · exact W14_of_ne m ρ c main_arg1 (by decide)
  · exact W14_of_ne m ρ c main_arg2 (by decide)
  · exact W14_of_ne m ρ c main_arg4 (by decide)
  · exact W14_of_ne m ρ c main_arg5 (by decide)
  · exact W14_of_ne m ρ c main_arg6 (by decide)
  · exact W14_of_ne m ρ c main_arg7 (by decide)
  · exact W14_of_ne m ρ c main_arg8 (by decide)
  · exact W14_of_ne m ρ c main_arg9 (by decide)
  · exact W14_of_ne m ρ c main_arg10 (by decide)
  · exact (W14_arr m ρ c 1).trans (((dat4 (V13 m ρ) c).arrAt_in 1 rfl _).trans (A_eq4 (V13 m ρ) c 1))
  · exact W14_of_ne m ρ c main_v14 (by decide)

/-- Region 5 leaves every kept buffer as it found it: it reads one of the factor columns through an input window,
    which is never written back, and the others are none of its arrays. -/
theorem pass5 (c : Dev nD) (b : Ref sig .tc) (hb : Kept b) : W16 m ρ c (Proc.devRef .tc b) = W15 m ρ c (Proc.devRef .tc b) := by
  rcases hb with rfl | rfl | rfl | rfl | rfl | rfl | rfl | rfl | rfl | rfl | rfl
  · exact W16_of_ne m ρ c main_arg1 (by decide)
  · exact W16_of_ne m ρ c main_arg2 (by decide)
  · exact W16_of_ne m ρ c main_arg4 (by decide)
  · exact W16_of_ne m ρ c main_arg5 (by decide)
  · exact W16_of_ne m ρ c main_arg6 (by decide)
  · exact W16_of_ne m ρ c main_arg7 (by decide)
  · exact W16_of_ne m ρ c main_arg8 (by decide)
  · exact W16_of_ne m ρ c main_arg9 (by decide)
  · exact W16_of_ne m ρ c main_arg10 (by decide)
  · exact W16_of_ne m ρ c main_v11 (by decide)
  · exact (W16_arr m ρ c 1).trans (((dat5 (V15 m ρ) c).arrAt_in 1 rfl _).trans (A_eq5 (V15 m ρ) c 1))

/-- Region 6 leaves every kept buffer as it found it: it reads one of the factor columns through an input window,
    which is never written back, and the others are none of its arrays. -/
theorem pass6 (c : Dev nD) (b : Ref sig .tc) (hb : Kept b) : W18 m ρ c (Proc.devRef .tc b) = W17 m ρ c (Proc.devRef .tc b) := by
  rcases hb with rfl | rfl | rfl | rfl | rfl | rfl | rfl | rfl | rfl | rfl | rfl
  · exact W18_of_ne m ρ c main_arg1 (by decide)
  · exact W18_of_ne m ρ c main_arg2 (by decide)
  · exact W18_of_ne m ρ c main_arg4 (by decide)
  · exact W18_of_ne m ρ c main_arg5 (by decide)
  · exact W18_of_ne m ρ c main_arg6 (by decide)
  · exact W18_of_ne m ρ c main_arg7 (by decide)
  · exact W18_of_ne m ρ c main_arg8 (by decide)
  · exact W18_of_ne m ρ c main_arg9 (by decide)
  · exact W18_of_ne m ρ c main_arg10 (by decide)
  · exact (W18_arr m ρ c 1).trans (((dat6 (V17 m ρ) c).arrAt_in 1 rfl _).trans (A_eq6 (V17 m ρ) c 1))
  · exact W18_of_ne m ρ c main_v14 (by decide)

/-- Region 7 leaves every kept buffer as it found it: it reads one of the factor columns through an input window,
    which is never written back, and the others are none of its arrays. -/
theorem pass7 (c : Dev nD) (b : Ref sig .tc) (hb : Kept b) : W20 m ρ c (Proc.devRef .tc b) = W19 m ρ c (Proc.devRef .tc b) := by
  rcases hb with rfl | rfl | rfl | rfl | rfl | rfl | rfl | rfl | rfl | rfl | rfl
  · exact W20_of_ne m ρ c main_arg1 (by decide)
  · exact W20_of_ne m ρ c main_arg2 (by decide)
  · exact W20_of_ne m ρ c main_arg4 (by decide)
  · exact W20_of_ne m ρ c main_arg5 (by decide)
  · exact W20_of_ne m ρ c main_arg6 (by decide)
  · exact W20_of_ne m ρ c main_arg7 (by decide)
  · exact W20_of_ne m ρ c main_arg8 (by decide)
  · exact W20_of_ne m ρ c main_arg9 (by decide)
  · exact W20_of_ne m ρ c main_arg10 (by decide)
  · exact W20_of_ne m ρ c main_v11 (by decide)
  · exact (W20_arr m ρ c 1).trans (((dat7 (V19 m ρ) c).arrAt_in 1 rfl _).trans (A_eq7 (V19 m ρ) c 1))

/-- Host stretch 1 writes none of the kept buffers. -/
theorem hold1 (c : Dev nD) (b : Ref sig .tc) (hb : Kept b) : W7 m ρ c (Proc.devRef .tc b) = W6 m ρ c (Proc.devRef .tc b) := by
  rcases hb with rfl | rfl | rfl | rfl | rfl | rfl | rfl | rfl | rfl | rfl | rfl <;>
    (show StableHlo.after hostOps1 (W6 m ρ c) _ = _; after_results_simp)

/-- Host stretch 2 writes none of the kept buffers. -/
theorem hold2 (c : Dev nD) (b : Ref sig .tc) (hb : Kept b) : W9 m ρ c (Proc.devRef .tc b) = W8 m ρ c (Proc.devRef .tc b) := by
  rcases hb with rfl | rfl | rfl | rfl | rfl | rfl | rfl | rfl | rfl | rfl | rfl <;>
    (show StableHlo.after hostOps2 (W8 m ρ c) _ = _; after_results_simp)

/-- Host stretch 3 writes none of the kept buffers. -/
theorem hold3 (c : Dev nD) (b : Ref sig .tc) (hb : Kept b) : W11 m ρ c (Proc.devRef .tc b) = W10 m ρ c (Proc.devRef .tc b) := by
  rcases hb with rfl | rfl | rfl | rfl | rfl | rfl | rfl | rfl | rfl | rfl | rfl <;>
    (show StableHlo.after hostOps3 (W10 m ρ c) _ = _; after_results_simp)

/-- Host stretch 4 writes none of the kept buffers. -/
theorem hold4 (c : Dev nD) (b : Ref sig .tc) (hb : Kept b) : W13 m ρ c (Proc.devRef .tc b) = W12 m ρ c (Proc.devRef .tc b) := by
  rcases hb with rfl | rfl | rfl | rfl | rfl | rfl | rfl | rfl | rfl | rfl | rfl <;>
    (show StableHlo.after hostOps4 (W12 m ρ c) _ = _; after_results_simp)

/-- Host stretch 5 writes none of the kept buffers. -/
theorem hold5 (c : Dev nD) (b : Ref sig .tc) (hb : Kept b) : W15 m ρ c (Proc.devRef .tc b) = W14 m ρ c (Proc.devRef .tc b) := by
  rcases hb with rfl | rfl | rfl | rfl | rfl | rfl | rfl | rfl | rfl | rfl | rfl <;>
    (show StableHlo.after hostOps5 (W14 m ρ c) _ = _; after_results_simp)

/-- Host stretch 6 writes none of the kept buffers. -/
theorem hold6 (c : Dev nD) (b : Ref sig .tc) (hb : Kept b) : W17 m ρ c (Proc.devRef .tc b) = W16 m ρ c (Proc.devRef .tc b) := by
  rcases hb with rfl | rfl | rfl | rfl | rfl | rfl | rfl | rfl | rfl | rfl | rfl <;>
    (show StableHlo.after hostOps6 (W16 m ρ c) _ = _; after_results_simp)

/-- Host stretch 7 writes none of the kept buffers. -/
theorem hold7 (c : Dev nD) (b : Ref sig .tc) (hb : Kept b) : W19 m ρ c (Proc.devRef .tc b) = W18 m ρ c (Proc.devRef .tc b) := by
  rcases hb with rfl | rfl | rfl | rfl | rfl | rfl | rfl | rfl | rfl | rfl | rfl <;>
    (show StableHlo.after hostOps7 (W18 m ρ c) _ = _; after_results_simp)

/-! ### So each of them still holds, at every later boundary, what it held when the first region was entered -/
theorem kept6 (c : Dev nD) (b : Ref sig .tc) (hb : Kept b) : W6 m ρ c (Proc.devRef .tc b) = W5 m ρ c (Proc.devRef .tc b) :=
  pass0 m ρ c b hb
theorem kept7 (c : Dev nD) (b : Ref sig .tc) (hb : Kept b) : W7 m ρ c (Proc.devRef .tc b) = W5 m ρ c (Proc.devRef .tc b) :=
  (hold1 m ρ c b hb).trans (kept6 m ρ c b hb)
theorem kept8 (c : Dev nD) (b : Ref sig .tc) (hb : Kept b) : W8 m ρ c (Proc.devRef .tc b) = W5 m ρ c (Proc.devRef .tc b) :=
  (pass1 m ρ c b hb).trans (kept7 m ρ c b hb)
theorem kept9 (c : Dev nD) (b : Ref sig .tc) (hb : Kept b) : W9 m ρ c (Proc.devRef .tc b) = W5 m ρ c (Proc.devRef .tc b) :=
  (hold2 m ρ c b hb).trans (kept8 m ρ c b hb)
theorem kept10 (c : Dev nD) (b : Ref sig .tc) (hb : Kept b) : W10 m ρ c (Proc.devRef .tc b) = W5 m ρ c (Proc.devRef .tc b) :=
  (pass2 m ρ c b hb).trans (kept9 m ρ c b hb)
theorem kept11 (c : Dev nD) (b : Ref sig .tc) (hb : Kept b) : W11 m ρ c (Proc.devRef .tc b) = W5 m ρ c (Proc.devRef .tc b) :=
  (hold3 m ρ c b hb).trans (kept10 m ρ c b hb)
theorem kept12 (c : Dev nD) (b : Ref sig .tc) (hb : Kept b) : W12 m ρ c (Proc.devRef .tc b) = W5 m ρ c (Proc.devRef .tc b) :=
  (pass3 m ρ c b hb).trans (kept11 m ρ c b hb)
theorem kept13 (c : Dev nD) (b : Ref sig .tc) (hb : Kept b) : W13 m ρ c (Proc.devRef .tc b) = W5 m ρ c (Proc.devRef .tc b) :=
  (hold4 m ρ c b hb).trans (kept12 m ρ c b hb)
theorem kept14 (c : Dev nD) (b : Ref sig .tc) (hb : Kept b) : W14 m ρ c (Proc.devRef .tc b) = W5 m ρ c (Proc.devRef .tc b) :=
  (pass4 m ρ c b hb).trans (kept13 m ρ c b hb)
theorem kept15 (c : Dev nD) (b : Ref sig .tc) (hb : Kept b) : W15 m ρ c (Proc.devRef .tc b) = W5 m ρ c (Proc.devRef .tc b) :=
  (hold5 m ρ c b hb).trans (kept14 m ρ c b hb)
theorem kept16 (c : Dev nD) (b : Ref sig .tc) (hb : Kept b) : W16 m ρ c (Proc.devRef .tc b) = W5 m ρ c (Proc.devRef .tc b) :=
  (pass5 m ρ c b hb).trans (kept15 m ρ c b hb)
theorem kept17 (c : Dev nD) (b : Ref sig .tc) (hb : Kept b) : W17 m ρ c (Proc.devRef .tc b) = W5 m ρ c (Proc.devRef .tc b) :=
  (hold6 m ρ c b hb).trans (kept16 m ρ c b hb)
theorem kept18 (c : Dev nD) (b : Ref sig .tc) (hb : Kept b) : W18 m ρ c (Proc.devRef .tc b) = W5 m ρ c (Proc.devRef .tc b) :=
  (pass6 m ρ c b hb).trans (kept17 m ρ c b hb)
theorem kept19 (c : Dev nD) (b : Ref sig .tc) (hb : Kept b) : W19 m ρ c (Proc.devRef .tc b) = W5 m ρ c (Proc.devRef .tc b) :=
  (hold7 m ρ c b hb).trans (kept18 m ρ c b hb)

theorem at6_arg1 (c : Dev nD) : W6 m ρ c (Proc.devRef .tc main_arg1) = (m ((c : Thread nD τ).loc main_arg1)) :=
  (kept6 m ρ c main_arg1 (Or.inl rfl)).trans (entry_arg1 m ρ c)
theorem at6_arg2 (c : Dev nD) : W6 m ρ c (Proc.devRef .tc main_arg2) = (m ((c : Thread nD τ).loc main_arg2)) :=
  (kept6 m ρ c main_arg2 (Or.inr (Or.inl rfl))).trans (entry_arg2 m ρ c)
theorem at6_arg4 (c : Dev nD) : W6 m ρ c (Proc.devRef .tc main_arg4) = (m ((c : Thread nD τ).loc main_arg4)) :=
  (kept6 m ρ c main_arg4 (Or.inr (Or.inr (Or.inl rfl)))).trans (entry_arg4 m ρ c)
theorem at7_v14 (c : Dev nD) : W7 m ρ c (Proc.devRef .tc main_v14) = Cert.Gcn.degFactor (m ((c : Thread nD τ).loc main_arg2)) :=
  (kept7 m ρ c main_v14 (Or.inr (Or.inr (Or.inr (Or.inr (Or.inr (Or.inr (Or.inr (Or.inr (Or.inr (Or.inr (rfl)))))))))))).trans (entry_v14 m ρ c)
theorem at8_arg5 (c : Dev nD) : W8 m ρ c (Proc.devRef .tc main_arg5) = (m ((c : Thread nD τ).loc main_arg5)) :=
  (kept8 m ρ c main_arg5 (Or.inr (Or.inr (Or.inr (Or.inl rfl))))).trans (entry_arg5 m ρ c)
theorem at9_v11 (c : Dev nD) : W9 m ρ c (Proc.devRef .tc main_v11) = Cert.Gcn.degFactor (m ((c : Thread nD τ).loc main_arg1)) :=
  (kept9 m ρ c main_v11 (Or.inr (Or.inr (Or.inr (Or.inr (Or.inr (Or.inr (Or.inr (Or.inr (Or.inr (Or.inl rfl))))))))))).trans (entry_v11 m ρ c)
theorem at10_arg1 (c : Dev nD) : W10 m ρ c (Proc.devRef .tc main_arg1) = (m ((c : Thread nD τ).loc main_arg1)) :=
  (kept10 m ρ c main_arg1 (Or.inl rfl)).trans (entry_arg1 m ρ c)
theorem at10_arg2 (c : Dev nD) : W10 m ρ c (Proc.devRef .tc main_arg2) = (m ((c : Thread nD τ).loc main_arg2)) :=
  (kept10 m ρ c main_arg2 (Or.inr (Or.inl rfl))).trans (entry_arg2 m ρ c)
theorem at10_arg6 (c : Dev nD) : W10 m ρ c (Proc.devRef .tc main_arg6) = (m ((c : Thread nD τ).loc main_arg6)) :=
  (kept10 m ρ c main_arg6 (Or.inr (Or.inr (Or.inr (Or.inr (Or.inl rfl)))))).trans (entry_arg6 m ρ c)
theorem at11_v14 (c : Dev nD) : W11 m ρ c (Proc.devRef .tc main_v14) = Cert.Gcn.degFactor (m ((c : Thread nD τ).loc main_arg2)) :=
  (kept11 m ρ c main_v14 (Or.inr (Or.inr (Or.inr (Or.inr (Or.inr (Or.inr (Or.inr (Or.inr (Or.inr (Or.inr (rfl)))))))))))).trans (entry_v14 m ρ c)
theorem at12_arg7 (c : Dev nD) : W12 m ρ c (Proc.devRef .tc main_arg7) = (m ((c : Thread nD τ).loc main_arg7)) :=
  (kept12 m ρ c main_arg7 (Or.inr (Or.inr (Or.inr (Or.inr (Or.inr (Or.inl rfl))))))).trans (entry_arg7 m ρ c)
theorem at13_v11 (c : Dev nD) : W13 m ρ c (Proc.devRef .tc main_v11) = Cert.Gcn.degFactor (m ((c : Thread nD τ).loc main_arg1)) :=
  (kept13 m ρ c main_v11 (Or.inr (Or.inr (Or.inr (Or.inr (Or.inr (Or.inr (Or.inr (Or.inr (Or.inr (Or.inl rfl))))))))))).trans (entry_v11 m ρ c)
theorem at14_arg1 (c : Dev nD) : W14 m ρ c (Proc.devRef .tc main_arg1) = (m ((c : Thread nD τ).loc main_arg1)) :=
  (kept14 m ρ c main_arg1 (Or.inl rfl)).trans (entry_arg1 m ρ c)
theorem at14_arg2 (c : Dev nD) : W14 m ρ c (Proc.devRef .tc main_arg2) = (m ((c : Thread nD τ).loc main_arg2)) :=
  (kept14 m ρ c main_arg2 (Or.inr (Or.inl rfl))).trans (entry_arg2 m ρ c)
theorem at14_arg8 (c : Dev nD) : W14 m ρ c (Proc.devRef .tc main_arg8) = (m ((c : Thread nD τ).loc main_arg8)) :=
  (kept14 m ρ c main_arg8 (Or.inr (Or.inr (Or.inr (Or.inr (Or.inr (Or.inr (Or.inl rfl)))))))).trans (entry_arg8 m ρ c)
theorem at15_v14 (c : Dev nD) : W15 m ρ c (Proc.devRef .tc main_v14) = Cert.Gcn.degFactor (m ((c : Thread nD τ).loc main_arg2)) :=
  (kept15 m ρ c main_v14 (Or.inr (Or.inr (Or.inr (Or.inr (Or.inr (Or.inr (Or.inr (Or.inr (Or.inr (Or.inr (rfl)))))))))))).trans (entry_v14 m ρ c)
theorem at16_arg9 (c : Dev nD) : W16 m ρ c (Proc.devRef .tc main_arg9) = (m ((c : Thread nD τ).loc main_arg9)) :=
  (kept16 m ρ c main_arg9 (Or.inr (Or.inr (Or.inr (Or.inr (Or.inr (Or.inr (Or.inr (Or.inl rfl))))))))).trans (entry_arg9 m ρ c)
theorem at17_v11 (c : Dev nD) : W17 m ρ c (Proc.devRef .tc main_v11) = Cert.Gcn.degFactor (m ((c : Thread nD τ).loc main_arg1)) :=
  (kept17 m ρ c main_v11 (Or.inr (Or.inr (Or.inr (Or.inr (Or.inr (Or.inr (Or.inr (Or.inr (Or.inr (Or.inl rfl))))))))))).trans (entry_v11 m ρ c)
theorem at18_arg1 (c : Dev nD) : W18 m ρ c (Proc.devRef .tc main_arg1) = (m ((c : Thread nD τ).loc main_arg1)) :=
  (kept18 m ρ c main_arg1 (Or.inl rfl)).trans (entry_arg1 m ρ c)
theorem at18_arg2 (c : Dev nD) : W18 m ρ c (Proc.devRef .tc main_arg2) = (m ((c : Thread nD τ).loc main_arg2)) :=
  (kept18 m ρ c main_arg2 (Or.inr (Or.inl rfl))).trans (entry_arg2 m ρ c)
theorem at18_arg10 (c : Dev nD) : W18 m ρ c (Proc.devRef .tc main_arg10) = (m ((c : Thread nD τ).loc main_arg10)) :=
  (kept18 m ρ c main_arg10 (Or.inr (Or.inr (Or.inr (Or.inr (Or.inr (Or.inr (Or.inr (Or.inr (Or.inl rfl)))))))))).trans (entry_arg10 m ρ c)
theorem at19_v14 (c : Dev nD) : W19 m ρ c (Proc.devRef .tc main_v14) = Cert.Gcn.degFactor (m ((c : Thread nD τ).loc main_arg2)) :=
  (kept19 m ρ c main_v14 (Or.inr (Or.inr (Or.inr (Or.inr (Or.inr (Or.inr (Or.inr (Or.inr (Or.inr (Or.inr (rfl)))))))))))).trans (entry_v14 m ρ c)

end Cert.KernelIdeal.Hand

end
-- ==== Proof.LibMat.lean ====
/-
  A matrix product read at an index. For the plain dimension numbers (rows × contraction times contraction × columns)
  a `tpu.matmul` into the zero accumulator, at the ideal values, is at (a, b) the sum over the contracted coordinate `c`
  of the left operand at (a, c) times the right operand at (c, b): the contraction's index set has one axis, and the sum
  over it is re-indexed by that axis's coordinate.
-/
import Idealize.ShloMosaic.PureOps.Ideal.Laws
import Idealize.ShloMosaic.Lib.ValueIdx
import Idealize.ShloMosaic.Lib.ValueLayout

noncomputable section

open scoped BigOperators

namespace Cert.LibMat

open Idealize.ShloMosaic Idealize.ShloMosaic.ValueIdx

/-- The plain dimension numbers over any witness of their well-formedness. -/
abbrev plainDims {m k n : ℕ} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- A plain matrix product into the zero accumulator, at (a, b): the sum over the contracted coordinate. -/
theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (plainDims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (plainDims w) k rfl rfl).symm]
  refine Finset.sum_congr rfl fun c _ => ?_
  have c2 := contrEquiv1_symm_val (plainDims w) k rfl rfl c
  have l2 : (plainDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMat

end
-- ==== Proof.LibDotHost.lean ====
/-
  The host's matrix product read at an index. For the plain dimension numbers (rows × contraction times
  contraction × columns) a `stablehlo.dot_general`, at the ideal values, is at (a, b) the sum over the contracted
  coordinate `c` of the left operand at (a, c) times the right operand at (c, b) — the same sum a `tpu.matmul` into the
  zero accumulator is (LibMat), so a row block of the one is the matching rows of the other.
-/
import Idealize.ShloMosaic.PureOps.Ideal.Laws
import Idealize.ShloMosaic.Lib.ValueIdx
import Idealize.ShloMosaic.Lib.ValueLayout
import proofs.«134169_j66245575573518_1_alg».proof.Proof.LibMat

noncomputable section

open scoped BigOperators

namespace Cert.LibDotHost

open Idealize.ShloMosaic Idealize.ShloMosaic.ValueIdx Cert.LibMat

/-- A plain host matrix product at (a, b): the sum over the contracted coordinate. Generic in the three extents, the
    operands' formats, the precision and the witness of the dimension numbers' well-formedness. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (plainDims w) prec A B (ix2 a b) = ∑ c : Fin k, A (ix2 a c) * B (ix2 c b) := by
  show FloatOps.dotGeneral _ prec .single A B (ix2 a b) = _
  rw [Ideal.dotGeneral_apply, ← Equiv.sum_comp (contrEquiv1 (plainDims w) k rfl rfl).symm]
  refine Finset.sum_congr rfl fun c _ => ?_
  have c2 := contrEquiv1_symm_val (plainDims w) k rfl rfl c
  have l2 : (plainDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A row block of a plain `tpu.matmul` into the zero accumulator is the matching rows of the host's product: if the
    block's left operand at (p, c) is the whole left operand at (a, c) and the right operands agree on column `q` / `b`,
    then the block's product at (p, q) is the whole product at (a, b). -/
theorem matmul_block_eq_dotGeneral {m m' k n n' : ℕ} {φ₁ φ₂ ψ₁ ψ₂ : FTy}
    (w : DotDims.WF ⟨2, ![m, k]⟩ ⟨2, ![k, n]⟩ ⟨2, ![m, n]⟩ [1] [0] [0] [1] [] [])
    (w' : DotDims.WF ⟨2, ![m', k]⟩ ⟨2, ![k, n']⟩ ⟨2, ![m', n']⟩ [1] [0] [0] [1] [] [])
    (prec prec' : Option ContractPrecision)
    (x0 : FVec Ideal ⟨2, ![m, k]⟩ φ₁) (x1 : FVec Ideal ⟨2, ![k, n]⟩ φ₂)
    (X : FVec Ideal ⟨2, ![m', k]⟩ ψ₁) (W : FVec Ideal ⟨2, ![k, n']⟩ ψ₂)
    (p : Fin m) (q : Fin n) (a : Fin m') (b : Fin n')
    (h0 : ∀ c : Fin k, x0 (ix2 p c) = X (ix2 a c)) (h1 : ∀ c : Fin k, x1 (ix2 c q) = W (ix2 c b)) :
    matmul (plainDims w) prec x0 x1 (constant ⟨2, ![m, n]⟩ .f32 0x00000000#32) (ix2 p q)
      = Host.dotGeneral (plainDims w') prec' X W (ix2 a b) :=
  (matmul_plain_apply w prec x0 x1 p q).trans
    ((Finset.sum_congr rfl fun c _ => by rw [h0 c, h1 c]).trans (dotGeneral_plain_apply w' prec' X W a b).symm)

end Cert.LibDotHost

end
-- ==== Proof.Bodies.lean ====
/-
  What one grid point's block holds after each kernel body, read at a row and a column. The dense kernels scale the
  block's feature rows by the rows' factors and multiply by the weights (the contraction runs over the whole feature
  axis, so a block's entry is the whole product's entry in the matching row); the post kernels combine the block's
  aggregated rows with the rows' factors and the bias row, entry by entry.
-/
import proofs.«134169_j66245575573518_1_alg».proof.Proof.Gen.KernelIdeal.Skeleton
import proofs.«134169_j66245575573518_1_alg».proof.Proof.Net
import proofs.«134169_j66245575573518_1_alg».proof.Proof.LibDotHost
import Idealize.ShloMosaic.Lib.Pipeline.Value
import Idealize.ShloMosaic.Lib.ValueIdx

set_option maxRecDepth 16384

noncomputable section

namespace Cert.KernelIdeal.Hand

open Idealize.ShloMosaic Idealize.ShloMosaic.ValueIdx Cert.KernelIdeal Cert.KernelIdeal.Gen

/-- A feature entry times its row's factor, in a block and in the whole array: equal when the block's row `p` is the
    array's row `a`. -/
theorem scaled_entry (x0 : Vec Ideal S2000x128 .f32) (x1 : Vec Ideal S2000x1 .f32)
    (H : FVec Ideal Cert.ReferenceIdeal.S50000x128 .f32) (Nn : FVec Ideal Cert.ReferenceIdeal.S50000x1 .f32)
    (p : Fin 2000) (a : Fin 50000) (c : Fin 128)
    (h0 : x0 (ix2 p c) = H (ix2 a c)) (h1 : x1 (ix2 p (0 : Fin 1)) = Nn (ix2 a (0 : Fin 1))) :
    mulf x0 (broadcastTo S2000x128 x1 broadcasts_S2000x1_S2000x128) (ix2 p c)
      = mulf H (broadcastInDim Cert.ReferenceIdeal.S50000x128 ![0, 1] Cert.ReferenceIdeal.Gen.bcast_S50000x1_S50000x128_0_1 Nn) (ix2 a c) := by
  rw [mulf_apply, mulf_apply, h0,
    broadcastTo_apply x1 _ (ix2 p c) (ix2 p 0) (fun d => by match d with | ⟨0, _⟩ => rfl | ⟨1, _⟩ => rfl),
    broadcastInDim_apply _ _ Nn (ix2 a c) (ix2 a 0) (fun d => by match d with | ⟨0, _⟩ => rfl | ⟨1, _⟩ => rfl), h1]

/-- A block of dense kernel 0 at row `p`, column `q`: when the block's rows are rows of whole arrays (row `p` of the
    block is row `a`), the entry is the host product's entry at (a, q). -/
theorem dense0_entry (x0 : Vec Ideal S2000x128 .f32) (x1 : Vec Ideal S2000x1 .f32) (x2 : Vec Ideal S128x128 .bf16)
    (H : FVec Ideal Cert.ReferenceIdeal.S50000x128 .f32) (Nn : FVec Ideal Cert.ReferenceIdeal.S50000x1 .f32) (Wt : FVec Ideal Cert.ReferenceIdeal.S128x128 .bf16)
    (p : Fin 2000) (q : Fin 128) (a : Fin 50000)
    (h0 : ∀ c : Fin 128, x0 (ix2 p c) = H (ix2 a c)) (h1 : x1 (ix2 p (0 : Fin 1)) = Nn (ix2 a (0 : Fin 1)))
    (h2 : ∀ c : Fin 128, x2 (ix2 c q) = Wt (ix2 c q)) :
    k0_pay1 x0 x1 x2 (ix2 p q) = Cert.Gcn.lin128 H Nn Wt (ix2 a q) := by
  unfold k0_pay1 Cert.Gcn.lin128
  dsimp only
  refine Cert.LibDotHost.matmul_block_eq_dotGeneral (m := 2000) (m' := 50000) (k := 128) (n := 128) (n' := 128)
    dot_S2000x128_S128x128_S2000x128_1_0_0_1_n_n_wf Cert.ReferenceIdeal.Gen.dot_S50000x128_S128x128_S50000x128_1_0_0_1_n_n_wf
    none none _ _ _ _ p q a q (fun c => ?_) (fun c => ?_)
  · rw [truncf_apply, shapeCast_self]; exact scaled_entry x0 x1 H Nn p a c (h0 c) h1
  · rw [shapeCast_self]; exact h2 c

/-- A block of dense kernel 2 at row `p`, column `q`: when the block's rows are rows of whole arrays (row `p` of the
    block is row `a`), the entry is the host product's entry at (a, q). -/
theorem dense2_entry (x0 : Vec Ideal S2000x128 .f32) (x1 : Vec Ideal S2000x1 .f32) (x2 : Vec Ideal S128x128 .bf16)
    (H : FVec Ideal Cert.ReferenceIdeal.S50000x128 .f32) (Nn : FVec Ideal Cert.ReferenceIdeal.S50000x1 .f32) (Wt : FVec Ideal Cert.ReferenceIdeal.S128x128 .bf16)
    (p : Fin 2000) (q : Fin 128) (a : Fin 50000)
    (h0 : ∀ c : Fin 128, x0 (ix2 p c) = H (ix2 a c)) (h1 : x1 (ix2 p (0 : Fin 1)) = Nn (ix2 a (0 : Fin 1)))
    (h2 : ∀ c : Fin 128, x2 (ix2 c q) = Wt (ix2 c q)) :
    k2_pay1 x0 x1 x2 (ix2 p q) = Cert.Gcn.lin128 H Nn Wt (ix2 a q) := by
  unfold k2_pay1 Cert.Gcn.lin128
  dsimp only
  refine Cert.LibDotHost.matmul_block_eq_dotGeneral (m := 2000) (m' := 50000) (k := 128) (n := 128) (n' := 128)
    dot_S2000x128_S128x128_S2000x128_1_0_0_1_n_n_wf Cert.ReferenceIdeal.Gen.dot_S50000x128_S128x128_S50000x128_1_0_0_1_n_n_wf
    none none _ _ _ _ p q a q (fun c => ?_) (fun c => ?_)
  · rw [truncf_apply, shapeCast_self, shapeCast_self]; exact scaled_entry x0 x1 H Nn p a c (h0 c) h1
  · rw [shapeCast_self]; exact h2 c

/-- A block of dense kernel 4 at row `p`, column `q`: when the block's rows are rows of whole arrays (row `p` of the
    block is row `a`), the entry is the host product's entry at (a, q). -/
theorem dense4_entry (x0 : Vec Ideal S2000x128 .f32) (x1 : Vec Ideal S2000x1 .f32) (x2 : Vec Ideal S128x128 .bf16)
    (H : FVec Ideal Cert.ReferenceIdeal.S50000x128 .f32) (Nn : FVec Ideal Cert.ReferenceIdeal.S50000x1 .f32) (Wt : FVec Ideal Cert.ReferenceIdeal.S128x128 .bf16)
    (p : Fin 2000) (q : Fin 128) (a : Fin 50000)
    (h0 : ∀ c : Fin 128, x0 (ix2 p c) = H (ix2 a c)) (h1 : x1 (ix2 p (0 : Fin 1)) = Nn (ix2 a (0 : Fin 1)))
    (h2 : ∀ c : Fin 128, x2 (ix2 c q) = Wt (ix2 c q)) :
    k4_pay1 x0 x1 x2 (ix2 p q) = Cert.Gcn.lin128 H Nn Wt (ix2 a q) := by
  unfold k4_pay1 Cert.Gcn.lin128
  dsimp only
  refine Cert.LibDotHost.matmul_block_eq_dotGeneral (m := 2000) (m' := 50000) (k := 128) (n := 128) (n' := 128)
    dot_S2000x128_S128x128_S2000x128_1_0_0_1_n_n_wf Cert.ReferenceIdeal.Gen.dot_S50000x128_S128x128_S50000x128_1_0_0_1_n_n_wf
    none none _ _ _ _ p q a q (fun c => ?_) (fun c => ?_)
  · rw [truncf_apply, shapeCast_self, shapeCast_self]; exact scaled_entry x0 x1 H Nn p a c (h0 c) h1
  · rw [shapeCast_self]; exact h2 c

/-- A block of dense kernel 6 at row `p`, column `q`: when the block's rows are rows of whole arrays (row `p` of the
    block is row `a`), the entry is the host product's entry at (a, q). -/
theorem dense6_entry (x0 : Vec Ideal S2000x128 .f32) (x1 : Vec Ideal S2000x1 .f32) (x2 : Vec Ideal S128x64 .bf16)
    (H : FVec Ideal Cert.ReferenceIdeal.S50000x128 .f32) (Nn : FVec Ideal Cert.ReferenceIdeal.S50000x1 .f32) (Wt : FVec Ideal Cert.ReferenceIdeal.S128x64 .bf16)
    (p : Fin 2000) (q : Fin 64) (a : Fin 50000)
    (h0 : ∀ c : Fin 128, x0 (ix2 p c) = H (ix2 a c)) (h1 : x1 (ix2 p (0 : Fin 1)) = Nn (ix2 a (0 : Fin 1)))
    (h2 : ∀ c : Fin 128, x2 (ix2 c q) = Wt (ix2 c q)) :
    k6_pay1 x0 x1 x2 (ix2 p q) = Cert.Gcn.lin64 H Nn Wt (ix2 a q) := by
  unfold k6_pay1 Cert.Gcn.lin64
  dsimp only
  refine Cert.LibDotHost.matmul_block_eq_dotGeneral (m := 2000) (m' := 50000) (k := 128) (n := 64) (n' := 64)
    dot_S2000x128_S128x64_S2000x64_1_0_0_1_n_n_wf Cert.ReferenceIdeal.Gen.dot_S50000x128_S128x64_S50000x64_1_0_0_1_n_n_wf
    none none _ _ _ _ p q a q (fun c => ?_) (fun c => ?_)
  · rw [truncf_apply, shapeCast_self, shapeCast_self]; exact scaled_entry x0 x1 H Nn p a c (h0 c) h1
  · rw [shapeCast_self]; exact h2 c

/-- A block of post kernel 1 at row `p`, column `q`: when the block's rows are rows of whole arrays (row `p` of the
    block is row `a`) and the bias block is the bias row, the entry is the whole-array combination's entry at (a, q). -/
theorem post1_entry (x0 : Vec Ideal S2000x128 .f32) (x1 : Vec Ideal S2000x1 .f32) (x2 : Vec Ideal S1x128 .f32)
    (A : FVec Ideal Cert.ReferenceIdeal.S50000x128 .f32) (Nn : FVec Ideal Cert.ReferenceIdeal.S50000x1 .f32) (B : FVec Ideal Cert.ReferenceIdeal.S1x128 .f32)
    (p : Fin 2000) (q : Fin 128) (a : Fin 50000)
    (h0 : x0 (ix2 p q) = A (ix2 a q)) (h1 : x1 (ix2 p (0 : Fin 1)) = Nn (ix2 a (0 : Fin 1)))
    (h2 : x2 (ix2 (0 : Fin 1) q) = B (ix2 (0 : Fin 1) q)) :
    k1_pay1 x0 x1 x2 (ix2 p q) = Cert.Gcn.post128 A Nn B (ix2 a q) := by
  unfold k1_pay1 Cert.Gcn.post128
  dsimp only
  rw [maximumf_apply, maximumf_apply, addf_apply, addf_apply, mulf_apply, mulf_apply, shapeCast_self, shapeCast_self, shapeCast_self, h0,
    broadcastTo_apply x1 _ (ix2 p q) (ix2 p 0) (fun d => by match d with | ⟨0, _⟩ => rfl | ⟨1, _⟩ => rfl),
    broadcastTo_apply x2 _ (ix2 p q) (ix2 0 q) (fun d => by match d with | ⟨0, _⟩ => rfl | ⟨1, _⟩ => rfl),
    broadcastInDim_apply _ _ Nn (ix2 a q) (ix2 a 0) (fun d => by match d with | ⟨0, _⟩ => rfl | ⟨1, _⟩ => rfl),
    broadcastInDim_apply _ _ B (ix2 a q) (ix2 0 q) (fun d => by match d with | ⟨0, _⟩ => rfl | ⟨1, _⟩ => rfl), h1, h2,
    broadcastInDim_apply _ _ (constant (F := Ideal) Cert.ReferenceIdeal.S_ .f32 0x00000000#32) (ix2 a q) ix0 (fun d => d.elim0)]
  rfl

/-- A block of post kernel 3 at row `p`, column `q`: when the block's rows are rows of whole arrays (row `p` of the
    block is row `a`) and the bias block is the bias row, the entry is the whole-array combination's entry at (a, q). -/
theorem post3_entry (x0 : Vec Ideal S2000x128 .f32) (x1 : Vec Ideal S2000x1 .f32) (x2 : Vec Ideal S1x128 .f32)
    (A : FVec Ideal Cert.ReferenceIdeal.S50000x128 .f32) (Nn : FVec Ideal Cert.ReferenceIdeal.S50000x1 .f32) (B : FVec Ideal Cert.ReferenceIdeal.S1x128 .f32)
    (p : Fin 2000) (q : Fin 128) (a : Fin 50000)
    (h0 : x0 (ix2 p q) = A (ix2 a q)) (h1 : x1 (ix2 p (0 : Fin 1)) = Nn (ix2 a (0 : Fin 1)))
    (h2 : x2 (ix2 (0 : Fin 1) q) = B (ix2 (0 : Fin 1) q)) :
    k3_pay1 x0 x1 x2 (ix2 p q) = Cert.Gcn.post128 A Nn B (ix2 a q) := by
  unfold k3_pay1 Cert.Gcn.post128
  dsimp only
  rw [maximumf_apply, maximumf_apply, addf_apply, addf_apply, mulf_apply, mulf_apply, shapeCast_self, shapeCast_self, shapeCast_self, h0,
    broadcastTo_apply x1 _ (ix2 p q) (ix2 p 0) (fun d => by match d with | ⟨0, _⟩ => rfl | ⟨1, _⟩ => rfl),
    broadcastTo_apply x2 _ (ix2 p q) (ix2 0 q) (fun d => by match d with | ⟨0, _⟩ => rfl | ⟨1, _⟩ => rfl),
    broadcastInDim_apply _ _ Nn (ix2 a q) (ix2 a 0) (fun d => by match d with | ⟨0, _⟩ => rfl | ⟨1, _⟩ => rfl),
    broadcastInDim_apply _ _ B (ix2 a q) (ix2 0 q) (fun d => by match d with | ⟨0, _⟩ => rfl | ⟨1, _⟩ => rfl), h1, h2,
    broadcastInDim_apply _ _ (constant (F := Ideal) Cert.ReferenceIdeal.S_ .f32 0x00000000#32) (ix2 a q) ix0 (fun d => d.elim0)]
  rfl

/-- A block of post kernel 5 at row `p`, column `q`: when the block's rows are rows of whole arrays (row `p` of the
    block is row `a`) and the bias block is the bias row, the entry is the whole-array combination's entry at (a, q). -/
theorem post5_entry (x0 : Vec Ideal S2000x128 .f32) (x1 : Vec Ideal S2000x1 .f32) (x2 : Vec Ideal S1x128 .f32)
    (A : FVec Ideal Cert.ReferenceIdeal.S50000x128 .f32) (Nn : FVec Ideal Cert.ReferenceIdeal.S50000x1 .f32) (B : FVec Ideal Cert.ReferenceIdeal.S1x128 .f32)
    (p : Fin 2000) (q : Fin 128) (a : Fin 50000)
    (h0 : x0 (ix2 p q) = A (ix2 a q)) (h1 : x1 (ix2 p (0 : Fin 1)) = Nn (ix2 a (0 : Fin 1)))
    (h2 : x2 (ix2 (0 : Fin 1) q) = B (ix2 (0 : Fin 1) q)) :
    k5_pay1 x0 x1 x2 (ix2 p q) = Cert.Gcn.post128 A Nn B (ix2 a q) := by
  unfold k5_pay1 Cert.Gcn.post128
  dsimp only
  rw [maximumf_apply, maximumf_apply, addf_apply, addf_apply, mulf_apply, mulf_apply, shapeCast_self, shapeCast_self, shapeCast_self, h0,
    broadcastTo_apply x1 _ (ix2 p q) (ix2 p 0) (fun d => by match d with | ⟨0, _⟩ => rfl | ⟨1, _⟩ => rfl),
    broadcastTo_apply x2 _ (ix2 p q) (ix2 0 q) (fun d => by match d with | ⟨0, _⟩ => rfl | ⟨1, _⟩ => rfl),
    broadcastInDim_apply _ _ Nn (ix2 a q) (ix2 a 0) (fun d => by match d with | ⟨0, _⟩ => rfl | ⟨1, _⟩ => rfl),
    broadcastInDim_apply _ _ B (ix2 a q) (ix2 0 q) (fun d => by match d with | ⟨0, _⟩ => rfl | ⟨1, _⟩ => rfl), h1, h2,
    broadcastInDim_apply _ _ (constant (F := Ideal) Cert.ReferenceIdeal.S_ .f32 0x00000000#32) (ix2 a q) ix0 (fun d => d.elim0)]
  rfl

/-- A block of post kernel 7 at row `p`, column `q`: when the block's rows are rows of whole arrays (row `p` of the
    block is row `a`) and the bias block is the bias row, the entry is the whole-array combination's entry at (a, q). -/
theorem post7_entry (x0 : Vec Ideal S2000x64 .f32) (x1 : Vec Ideal S2000x1 .f32) (x2 : Vec Ideal S1x64 .f32)
    (A : FVec Ideal Cert.ReferenceIdeal.S50000x64 .f32) (Nn : FVec Ideal Cert.ReferenceIdeal.S50000x1 .f32) (B : FVec Ideal Cert.ReferenceIdeal.S1x64 .f32)
    (p : Fin 2000) (q : Fin 64) (a : Fin 50000)
    (h0 : x0 (ix2 p q) = A (ix2 a q)) (h1 : x1 (ix2 p (0 : Fin 1)) = Nn (ix2 a (0 : Fin 1)))
    (h2 : x2 (ix2 (0 : Fin 1) q) = B (ix2 (0 : Fin 1) q)) :
    k7_pay1 x0 x1 x2 (ix2 p q) = Cert.Gcn.post64 A Nn B (ix2 a q) := by
  unfold k7_pay1 Cert.Gcn.post64
  dsimp only
  rw [addf_apply, addf_apply, mulf_apply, mulf_apply, shapeCast_self, shapeCast_self, shapeCast_self, h0,
    broadcastTo_apply x1 _ (ix2 p q) (ix2 p 0) (fun d => by match d with | ⟨0, _⟩ => rfl | ⟨1, _⟩ => rfl),
    broadcastTo_apply x2 _ (ix2 p q) (ix2 0 q) (fun d => by match d with | ⟨0, _⟩ => rfl | ⟨1, _⟩ => rfl),
    broadcastInDim_apply _ _ Nn (ix2 a q) (ix2 a 0) (fun d => by match d with | ⟨0, _⟩ => rfl | ⟨1, _⟩ => rfl),
    broadcastInDim_apply _ _ B (ix2 a q) (ix2 0 q) (fun d => by match d with | ⟨0, _⟩ => rfl | ⟨1, _⟩ => rfl), h1, h2]

/-- The same at any index `j` of the block and `i` of the array, the block's row of `j` being the array's row of `i`
    and the weights block being the whole weights array. -/
theorem dense0_point (x0 : Vec Ideal S2000x128 .f32) (x1 : Vec Ideal S2000x1 .f32) (x2 : Vec Ideal S128x128 .bf16)
    (H : FVec Ideal Cert.ReferenceIdeal.S50000x128 .f32) (Nn : FVec Ideal Cert.ReferenceIdeal.S50000x1 .f32) (Wt : FVec Ideal Cert.ReferenceIdeal.S128x128 .bf16)
    (j : S2000x128.Idx) (i : Cert.ReferenceIdeal.S50000x128.Idx)
    (h0 : ∀ (y : S2000x128.Idx) (z : Cert.ReferenceIdeal.S50000x128.Idx), (y 0).val = (j 0).val → (z 0).val = (i 0).val → (y 1).val = (z 1).val → x0 y = H z)
    (h1 : ∀ (y : S2000x1.Idx) (z : Cert.ReferenceIdeal.S50000x1.Idx), (y 0).val = (j 0).val → (z 0).val = (i 0).val → x1 y = Nn z)
    (h2 : x2 = Wt) (hq : (i 1).val = (j 1).val) :
    k0_pay1 x0 x1 x2 j = Cert.Gcn.lin128 H Nn Wt i := by
  obtain ⟨p, q, rfl⟩ : ∃ (p : Fin 2000) (q : Fin 128), j = ix2 p q := ⟨j 0, j 1, eq_ix2 j⟩
  obtain ⟨a, b, rfl⟩ : ∃ (a : Fin 50000) (b : Fin 128), i = ix2 a b := ⟨i 0, i 1, eq_ix2 i⟩
  obtain rfl : b = q := Fin.ext hq
  subst h2
  exact dense0_entry x0 x1 x2 H Nn x2 p b a (fun c => h0 (ix2 p c) (ix2 a c) rfl rfl rfl) (h1 (ix2 p 0) (ix2 a 0) rfl rfl) (fun c => rfl)

/-- The same at any index `j` of the block and `i` of the array, the block's row of `j` being the array's row of `i`
    and the weights block being the whole weights array. -/
theorem dense2_point (x0 : Vec Ideal S2000x128 .f32) (x1 : Vec Ideal S2000x1 .f32) (x2 : Vec Ideal S128x128 .bf16)
    (H : FVec Ideal Cert.ReferenceIdeal.S50000x128 .f32) (Nn : FVec Ideal Cert.ReferenceIdeal.S50000x1 .f32) (Wt : FVec Ideal Cert.ReferenceIdeal.S128x128 .bf16)
    (j : S2000x128.Idx) (i : Cert.ReferenceIdeal.S50000x128.Idx)
    (h0 : ∀ (y : S2000x128.Idx) (z : Cert.ReferenceIdeal.S50000x128.Idx), (y 0).val = (j 0).val → (z 0).val = (i 0).val → (y 1).val = (z 1).val → x0 y = H z)
    (h1 : ∀ (y : S2000x1.Idx) (z : Cert.ReferenceIdeal.S50000x1.Idx), (y 0).val = (j 0).val → (z 0).val = (i 0).val → x1 y = Nn z)
    (h2 : x2 = Wt) (hq : (i 1).val = (j 1).val) :
    k2_pay1 x0 x1 x2 j = Cert.Gcn.lin128 H Nn Wt i := by
  obtain ⟨p, q, rfl⟩ : ∃ (p : Fin 2000) (q : Fin 128), j = ix2 p q := ⟨j 0, j 1, eq_ix2 j⟩
  obtain ⟨a, b, rfl⟩ : ∃ (a : Fin 50000) (b : Fin 128), i = ix2 a b := ⟨i 0, i 1, eq_ix2 i⟩
  obtain rfl : b = q := Fin.ext hq
  subst h2
  exact dense2_entry x0 x1 x2 H Nn x2 p b a (fun c => h0 (ix2 p c) (ix2 a c) rfl rfl rfl) (h1 (ix2 p 0) (ix2 a 0) rfl rfl) (fun c => rfl)

/-- The same at any index `j` of the block and `i` of the array, the block's row of `j` being the array's row of `i`
    and the weights block being the whole weights array. -/
theorem dense4_point (x0 : Vec Ideal S2000x128 .f32) (x1 : Vec Ideal S2000x1 .f32) (x2 : Vec Ideal S128x128 .bf16)
    (H : FVec Ideal Cert.ReferenceIdeal.S50000x128 .f32) (Nn : FVec Ideal Cert.ReferenceIdeal.S50000x1 .f32) (Wt : FVec Ideal Cert.ReferenceIdeal.S128x128 .bf16)
    (j : S2000x128.Idx) (i : Cert.ReferenceIdeal.S50000x128.Idx)
    (h0 : ∀ (y : S2000x128.Idx) (z : Cert.ReferenceIdeal.S50000x128.Idx), (y 0).val = (j 0).val → (z 0).val = (i 0).val → (y 1).val = (z 1).val → x0 y = H z)
    (h1 : ∀ (y : S2000x1.Idx) (z : Cert.ReferenceIdeal.S50000x1.Idx), (y 0).val = (j 0).val → (z 0).val = (i 0).val → x1 y = Nn z)
    (h2 : x2 = Wt) (hq : (i 1).val = (j 1).val) :
    k4_pay1 x0 x1 x2 j = Cert.Gcn.lin128 H Nn Wt i := by
  obtain ⟨p, q, rfl⟩ : ∃ (p : Fin 2000) (q : Fin 128), j = ix2 p q := ⟨j 0, j 1, eq_ix2 j⟩
  obtain ⟨a, b, rfl⟩ : ∃ (a : Fin 50000) (b : Fin 128), i = ix2 a b := ⟨i 0, i 1, eq_ix2 i⟩
  obtain rfl : b = q := Fin.ext hq
  subst h2
  exact dense4_entry x0 x1 x2 H Nn x2 p b a (fun c => h0 (ix2 p c) (ix2 a c) rfl rfl rfl) (h1 (ix2 p 0) (ix2 a 0) rfl rfl) (fun c => rfl)

/-- The same at any index `j` of the block and `i` of the array, the block's row of `j` being the array's row of `i`
    and the weights block being the whole weights array. -/
theorem dense6_point (x0 : Vec Ideal S2000x128 .f32) (x1 : Vec Ideal S2000x1 .f32) (x2 : Vec Ideal S128x64 .bf16)
    (H : FVec Ideal Cert.ReferenceIdeal.S50000x128 .f32) (Nn : FVec Ideal Cert.ReferenceIdeal.S50000x1 .f32) (Wt : FVec Ideal Cert.ReferenceIdeal.S128x64 .bf16)
    (j : S2000x64.Idx) (i : Cert.ReferenceIdeal.S50000x64.Idx)
    (h0 : ∀ (y : S2000x128.Idx) (z : Cert.ReferenceIdeal.S50000x128.Idx), (y 0).val = (j 0).val → (z 0).val = (i 0).val → (y 1).val = (z 1).val → x0 y = H z)
    (h1 : ∀ (y : S2000x1.Idx) (z : Cert.ReferenceIdeal.S50000x1.Idx), (y 0).val = (j 0).val → (z 0).val = (i 0).val → x1 y = Nn z)
    (h2 : x2 = Wt) (hq : (i 1).val = (j 1).val) :
    k6_pay1 x0 x1 x2 j = Cert.Gcn.lin64 H Nn Wt i := by
  obtain ⟨p, q, rfl⟩ : ∃ (p : Fin 2000) (q : Fin 64), j = ix2 p q := ⟨j 0, j 1, eq_ix2 j⟩
  obtain ⟨a, b, rfl⟩ : ∃ (a : Fin 50000) (b : Fin 64), i = ix2 a b := ⟨i 0, i 1, eq_ix2 i⟩
  obtain rfl : b = q := Fin.ext hq
  subst h2
  exact dense6_entry x0 x1 x2 H Nn x2 p b a (fun c => h0 (ix2 p c) (ix2 a c) rfl rfl rfl) (h1 (ix2 p 0) (ix2 a 0) rfl rfl) (fun c => rfl)

/-- The same at any index `j` of the block and `i` of the array, the block's row of `j` being the array's row of `i`
    and the bias block being the whole bias row. -/
theorem post1_point (x0 : Vec Ideal S2000x128 .f32) (x1 : Vec Ideal S2000x1 .f32) (x2 : Vec Ideal S1x128 .f32)
    (A : FVec Ideal Cert.ReferenceIdeal.S50000x128 .f32) (Nn : FVec Ideal Cert.ReferenceIdeal.S50000x1 .f32) (B : FVec Ideal Cert.ReferenceIdeal.S1x128 .f32)
    (j : S2000x128.Idx) (i : Cert.ReferenceIdeal.S50000x128.Idx)
    (h0 : x0 j = A i)
    (h1 : ∀ (y : S2000x1.Idx) (z : Cert.ReferenceIdeal.S50000x1.Idx), (y 0).val = (j 0).val → (z 0).val = (i 0).val → x1 y = Nn z)
    (h2 : x2 = B) (hq : (i 1).val = (j 1).val) :
    k1_pay1 x0 x1 x2 j = Cert.Gcn.post128 A Nn B i := by
  obtain ⟨p, q, rfl⟩ : ∃ (p : Fin 2000) (q : Fin 128), j = ix2 p q := ⟨j 0, j 1, eq_ix2 j⟩
  obtain ⟨a, b, rfl⟩ : ∃ (a : Fin 50000) (b : Fin 128), i = ix2 a b := ⟨i 0, i 1, eq_ix2 i⟩
  obtain rfl : b = q := Fin.ext hq
  subst h2
  exact post1_entry x0 x1 x2 A Nn x2 p b a h0 (h1 (ix2 p 0) (ix2 a 0) rfl rfl) rfl

/-- The same at any index `j` of the block and `i` of the array, the block's row of `j` being the array's row of `i`
    and the bias block being the whole bias row. -/
theorem post3_point (x0 : Vec Ideal S2000x128 .f32) (x1 : Vec Ideal S2000x1 .f32) (x2 : Vec Ideal S1x128 .f32)
    (A : FVec Ideal Cert.ReferenceIdeal.S50000x128 .f32) (Nn : FVec Ideal Cert.ReferenceIdeal.S50000x1 .f32) (B : FVec Ideal Cert.ReferenceIdeal.S1x128 .f32)
    (j : S2000x128.Idx) (i : Cert.ReferenceIdeal.S50000x128.Idx)
    (h0 : x0 j = A i)
    (h1 : ∀ (y : S2000x1.Idx) (z : Cert.ReferenceIdeal.S50000x1.Idx), (y 0).val = (j 0).val → (z 0).val = (i 0).val → x1 y = Nn z)
    (h2 : x2 = B) (hq : (i 1).val = (j 1).val) :
    k3_pay1 x0 x1 x2 j = Cert.Gcn.post128 A Nn B i := by
  obtain ⟨p, q, rfl⟩ : ∃ (p : Fin 2000) (q : Fin 128), j = ix2 p q := ⟨j 0, j 1, eq_ix2 j⟩
  obtain ⟨a, b, rfl⟩ : ∃ (a : Fin 50000) (b : Fin 128), i = ix2 a b := ⟨i 0, i 1, eq_ix2 i⟩
  obtain rfl : b = q := Fin.ext hq
  subst h2
  exact post3_entry x0 x1 x2 A Nn x2 p b a h0 (h1 (ix2 p 0) (ix2 a 0) rfl rfl) rfl

/-- The same at any index `j` of the block and `i` of the array, the block's row of `j` being the array's row of `i`
    and the bias block being the whole bias row. -/
theorem post5_point (x0 : Vec Ideal S2000x128 .f32) (x1 : Vec Ideal S2000x1 .f32) (x2 : Vec Ideal S1x128 .f32)
    (A : FVec Ideal Cert.ReferenceIdeal.S50000x128 .f32) (Nn : FVec Ideal Cert.ReferenceIdeal.S50000x1 .f32) (B : FVec Ideal Cert.ReferenceIdeal.S1x128 .f32)
    (j : S2000x128.Idx) (i : Cert.ReferenceIdeal.S50000x128.Idx)
    (h0 : x0 j = A i)
    (h1 : ∀ (y : S2000x1.Idx) (z : Cert.ReferenceIdeal.S50000x1.Idx), (y 0).val = (j 0).val → (z 0).val = (i 0).val → x1 y = Nn z)
    (h2 : x2 = B) (hq : (i 1).val = (j 1).val) :
    k5_pay1 x0 x1 x2 j = Cert.Gcn.post128 A Nn B i := by
  obtain ⟨p, q, rfl⟩ : ∃ (p : Fin 2000) (q : Fin 128), j = ix2 p q := ⟨j 0, j 1, eq_ix2 j⟩
  obtain ⟨a, b, rfl⟩ : ∃ (a : Fin 50000) (b : Fin 128), i = ix2 a b := ⟨i 0, i 1, eq_ix2 i⟩
  obtain rfl : b = q := Fin.ext hq
  subst h2
  exact post5_entry x0 x1 x2 A Nn x2 p b a h0 (h1 (ix2 p 0) (ix2 a 0) rfl rfl) rfl

/-- The same at any index `j` of the block and `i` of the array, the block's row of `j` being the array's row of `i`
    and the bias block being the whole bias row. -/
theorem post7_point (x0 : Vec Ideal S2000x64 .f32) (x1 : Vec Ideal S2000x1 .f32) (x2 : Vec Ideal S1x64 .f32)
    (A : FVec Ideal Cert.ReferenceIdeal.S50000x64 .f32) (Nn : FVec Ideal Cert.ReferenceIdeal.S50000x1 .f32) (B : FVec Ideal Cert.ReferenceIdeal.S1x64 .f32)
    (j : S2000x64.Idx) (i : Cert.ReferenceIdeal.S50000x64.Idx)
    (h0 : x0 j = A i)
    (h1 : ∀ (y : S2000x1.Idx) (z : Cert.ReferenceIdeal.S50000x1.Idx), (y 0).val = (j 0).val → (z 0).val = (i 0).val → x1 y = Nn z)
    (h2 : x2 = B) (hq : (i 1).val = (j 1).val) :
    k7_pay1 x0 x1 x2 j = Cert.Gcn.post64 A Nn B i := by
  obtain ⟨p, q, rfl⟩ : ∃ (p : Fin 2000) (q : Fin 64), j = ix2 p q := ⟨j 0, j 1, eq_ix2 j⟩
  obtain ⟨a, b, rfl⟩ : ∃ (a : Fin 50000) (b : Fin 64), i = ix2 a b := ⟨i 0, i 1, eq_ix2 i⟩
  obtain rfl : b = q := Fin.ext hq
  subst h2
  exact post7_entry x0 x1 x2 A Nn x2 p b a h0 (h1 (ix2 p 0) (ix2 a 0) rfl rfl) rfl

end Cert.KernelIdeal.Hand

end
-- ==== Proof.Region0.lean ====
/-
  Kernel region 0, the dense half of a layer: the features as the region finds them, scaled row by row and multiplied by the weights. The grid has 25 points; point `t` reads rows 2000·t … 2000·t + 1999 of the two row-wise
  operands and the whole third operand, and writes back rows 2000·t … 2000·t + 1999 of the result. So the result array
  after the region is one function of the three arrays the region is entered with, whatever those are.
-/
import proofs.«134169_j66245575573518_1_alg».proof.Proof.Gen.KernelIdeal.Frame
import proofs.«134169_j66245575573518_1_alg».proof.Proof.Bodies
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets0 : (![0, 0] : Fin 2 → Nat) = fun _ => 0 := funext fun a => by fin_cases a <;> rfl

/-- The windows' block positions at every grid point: the row-wise operands and the result at block row `t`, the third
    operand at its one block. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The third operand's block at any point is the whole array. -/
theorem whole_blk0 (c : Dev nD) (t : Fin cfg0.N) : (iblk0 V c 2 t : Vec Ideal S128x128 .bf16) = V c main_v15 := by
  obtain ⟨-, -, -, -, e4, e5, -, -⟩ := idx_facts0 t
  funext y
  show V c main_v15 (((cfg0.win 2).blk t).view.emb y) = V c main_v15 y
  refine congrArg (V c main_v15) (funext fun a => Fin.ext ?_)
  match a with
  | ⟨0, _⟩ => show win0_2.index t (0 : Fin 2) * 128 + 1 * (y 0).val = (y 0).val; rw [e4]; omega
  | ⟨1, _⟩ => show win0_2.index t (1 : Fin 2) * 128 + 1 * (y 1).val = (y 1).val; rw [e5]; omega

/-- What point `t` writes back is block `t` of the whole-array function of the region's entry contents. -/
theorem flushed0 (c : Dev nD) (t : Fin cfg0.N) :
    (dat0 V c).flushed 3 t = ((cfg0.win 3).blk t).view.read (Elt Ideal) (Cert.Gcn.lin128 (φ := .bf16) (V c main_arg0) (V c main_v11) (V c main_v15)) := by
  obtain ⟨e0, e1, e2, e3, -, -, e6, e7⟩ := idx_facts0 t
  show (cfg0.win 3).cut (grid0.coords t) ((dat0 V c).after 3 t) = _
  rw [after0_3]
  unfold out0_3
  rw [View.canon_unit_zero zero_offsets0]
  simp only [View.ld_unit_zero (S := S2000x128) zero_offsets0, View.ld_unit_zero (S := S2000x1) zero_offsets0, View.ld_unit_zero (S := S128x128) zero_offsets0]
  funext j
  have hi0 : ((((cfg0.win 3).blk t).view.emb j) 0).val = win0_3.index t (0 : Fin 2) * 2000 + 1 * (j 0).val := rfl
  have hi1 : ((((cfg0.win 3).blk t).view.emb j) 1).val = win0_3.index t (1 : Fin 2) * 128 + 1 * (j 1).val := rfl
  refine dense0_point (iblk0 V c 0 t) (iblk0 V c 1 t) (iblk0 V c 2 t) (V c main_arg0) (V c main_v11) (V c main_v15) j
    (((cfg0.win 3).blk t).view.emb j) (fun y z hy hz hyz => ?_) (fun y z hy hz => ?_) (whole_blk0 V c t) (by rw [hi1, e7]; omega)
  · show V c main_arg0 (((cfg0.win 0).blk t).view.emb y) = V c main_arg0 z
    refine congrArg (V c main_arg0) (funext fun a => Fin.ext ?_)
    match a with
    | ⟨0, _⟩ => show win0_0.index t (0 : Fin 2) * 2000 + 1 * (y 0).val = (z 0).val; rw [hz, hi0, hy, e0, e6]
    | ⟨1, _⟩ => show win0_0.index t (1 : Fin 2) * 128 + 1 * (y 1).val = (z 1).val; rw [e1, ← hyz]; omega
  · show V c main_v11 (((cfg0.win 1).blk t).view.emb y) = V c main_v11 z
    refine congrArg (V c main_v11) (funext fun a => Fin.ext ?_)
    match a with
    | ⟨0, _⟩ => show win0_1.index t (0 : Fin 2) * 2000 + 1 * (y 0).val = (z 0).val; rw [hz, hi0, hy, e2, e6]
    | ⟨1, _⟩ =>
      show win0_1.index t (1 : Fin 2) * 1 + 1 * (y 1).val = (z 1).val
      have hy1 : (y 1).val < 1 := (y 1).isLt
      have hz1 : (z 1).val < 1 := (z 1).isLt
      rw [e3]; omega

/-- Every index of the result array lies in the block of the point its row belongs to. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 25 := N_0
  obtain ⟨t, ht⟩ : ∃ t : Fin cfg0.N, t.val = (i 0).val / 2000 := ⟨⟨(i 0).val / 2000, by show _ < grid0.N; omega⟩, rfl⟩
  obtain ⟨-, -, -, -, -, -, e6, e7⟩ := idx_facts0 t
  refine ⟨t, flush0_3 t, ?_⟩
  show i ∈ ((View.whole main_v16).slice (win0_3.rect t)).set
  rw [View.set_slice_whole, Rect.mem_set_unit]
  intro a
  match a with
  | ⟨0, _⟩ =>
    show win0_3.index t (0 : Fin 2) * 2000 ≤ (i 0).val ∧ (i 0).val < win0_3.index t (0 : Fin 2) * 2000 + 2000
    rw [e6, ht]; omega
  | ⟨1, _⟩ =>
    show win0_3.index t (1 : Fin 2) * 128 ≤ (i 1).val ∧ (i 1).val < win0_3.index t (1 : Fin 2) * 128 + 128
    rw [e7]; omega

/-- The result array after the region: the whole-array function of the three arrays the region was entered with. -/
theorem final0 (c : Dev nD) : (dat0 V c).arrAt 3 cfg0.N = Cert.Gcn.lin128 (φ := .bf16) (V c main_arg0) (V c main_v11) (V c main_v15) :=
  (dat0 V c).arrAt_eq_of_cover 3 (Cert.Gcn.lin128 (φ := .bf16) (V c main_arg0) (V c main_v11) (V c main_v15)) (fun t _ => flushed0 V c t) (cover0)

end Cert.KernelIdeal.Hand

end
-- ==== Proof.Region1.lean ====
/-
  Kernel region 1, the closing half of a layer: the aggregated rows as the region finds them, scaled row by row, plus the bias row, clamped below at zero. The grid has 25 points; point `t` reads rows 2000·t … 2000·t + 1999 of the two row-wise
  operands and the whole third operand, and writes back rows 2000·t … 2000·t + 1999 of the result. So the result array
  after the region is one function of the three arrays the region is entered with, whatever those are.
-/
import proofs.«134169_j66245575573518_1_alg».proof.Proof.Gen.KernelIdeal.Frame
import proofs.«134169_j66245575573518_1_alg».proof.Proof.Bodies
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets1 : (![0, 0] : Fin 2 → Nat) = fun _ => 0 := funext fun a => by fin_cases a <;> rfl

/-- The windows' block positions at every grid point: the row-wise operands and the result at block row `t`, the third
    operand at its one block. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The third operand's block at any point is the whole array. -/
theorem whole_blk1 (c : Dev nD) (t : Fin cfg1.N) : (iblk1 V c 2 t : Vec Ideal S1x128 .f32) = V c main_v27 := by
  obtain ⟨-, -, -, -, e4, e5, -, -⟩ := idx_facts1 t
  funext y
  show V c main_v27 (((cfg1.win 2).blk t).view.emb y) = V c main_v27 y
  refine congrArg (V c main_v27) (funext fun a => Fin.ext ?_)
  match a with
  | ⟨0, _⟩ => show win1_2.index t (0 : Fin 2) * 1 + 1 * (y 0).val = (y 0).val; rw [e4]; omega
  | ⟨1, _⟩ => show win1_2.index t (1 : Fin 2) * 128 + 1 * (y 1).val = (y 1).val; rw [e5]; omega

/-- What point `t` writes back is block `t` of the whole-array function of the region's entry contents. -/
theorem flushed1 (c : Dev nD) (t : Fin cfg1.N) :
    (dat1 V c).flushed 3 t = ((cfg1.win 3).blk t).view.read (Elt Ideal) (Cert.Gcn.post128 (V c main_v26) (V c main_v14) (V c main_v27)) := by
  obtain ⟨e0, e1, e2, e3, -, -, e6, e7⟩ := idx_facts1 t
  show (cfg1.win 3).cut (grid1.coords t) ((dat1 V c).after 3 t) = _
  rw [after1_3]
  unfold out1_3
  rw [View.canon_unit_zero zero_offsets1]
  simp only [View.ld_unit_zero (S := S2000x128) zero_offsets1, View.ld_unit_zero (S := S2000x1) zero_offsets1, View.ld_unit_zero (S := S1x128) zero_offsets1]
  funext j
  have hi0 : ((((cfg1.win 3).blk t).view.emb j) 0).val = win1_3.index t (0 : Fin 2) * 2000 + 1 * (j 0).val := rfl
  have hi1 : ((((cfg1.win 3).blk t).view.emb j) 1).val = win1_3.index t (1 : Fin 2) * 128 + 1 * (j 1).val := rfl
  refine post1_point (iblk1 V c 0 t) (iblk1 V c 1 t) (iblk1 V c 2 t) (V c main_v26) (V c main_v14) (V c main_v27) j
    (((cfg1.win 3).blk t).view.emb j) ?_ (fun y z hy hz => ?_) (whole_blk1 V c t) (by rw [hi1, e7]; omega)
  · show V c main_v26 (((cfg1.win 0).blk t).view.emb j) = V c main_v26 (((cfg1.win 3).blk t).view.emb j)
    refine congrArg (V c main_v26) (funext fun a => Fin.ext ?_)
    match a with
    | ⟨0, _⟩ => show win1_0.index t (0 : Fin 2) * 2000 + 1 * (j 0).val = win1_3.index t (0 : Fin 2) * 2000 + 1 * (j 0).val; rw [e0, e6]
    | ⟨1, _⟩ => show win1_0.index t (1 : Fin 2) * 128 + 1 * (j 1).val = win1_3.index t (1 : Fin 2) * 128 + 1 * (j 1).val; rw [e1, e7]
  · show V c main_v14 (((cfg1.win 1).blk t).view.emb y) = V c main_v14 z
    refine congrArg (V c main_v14) (funext fun a => Fin.ext ?_)
    match a with
    | ⟨0, _⟩ => show win1_1.index t (0 : Fin 2) * 2000 + 1 * (y 0).val = (z 0).val; rw [hz, hi0, hy, e2, e6]
    | ⟨1, _⟩ =>
      show win1_1.index t (1 : Fin 2) * 1 + 1 * (y 1).val = (z 1).val
      have hy1 : (y 1).val < 1 := (y 1).isLt
      have hz1 : (z 1).val < 1 := (z 1).isLt
      rw [e3]; omega

/-- Every index of the result array lies in the block of the point its row belongs to. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : grid1.N = 25 := N_1
  obtain ⟨t, ht⟩ : ∃ t : Fin cfg1.N, t.val = (i 0).val / 2000 := ⟨⟨(i 0).val / 2000, by show _ < grid1.N; omega⟩, rfl⟩
  obtain ⟨-, -, -, -, -, -, e6, e7⟩ := idx_facts1 t
  refine ⟨t, flush1_3 t, ?_⟩
  show i ∈ ((View.whole main_v28).slice (win1_3.rect t)).set
  rw [View.set_slice_whole, Rect.mem_set_unit]
  intro a
  match a with
  | ⟨0, _⟩ =>
    show win1_3.index t (0 : Fin 2) * 2000 ≤ (i 0).val ∧ (i 0).val < win1_3.index t (0 : Fin 2) * 2000 + 2000
    rw [e6, ht]; omega
  | ⟨1, _⟩ =>
    show win1_3.index t (1 : Fin 2) * 128 ≤ (i 1).val ∧ (i 1).val < win1_3.index t (1 : Fin 2) * 128 + 128
    rw [e7]; omega

/-- The result array after the region: the whole-array function of the three arrays the region was entered with. -/
theorem final1 (c : Dev nD) : (dat1 V c).arrAt 3 cfg1.N = Cert.Gcn.post128 (V c main_v26) (V c main_v14) (V c main_v27) :=
  (dat1 V c).arrAt_eq_of_cover 3 (Cert.Gcn.post128 (V c main_v26) (V c main_v14) (V c main_v27)) (fun t _ => flushed1 V c t) (cover1)

end Cert.KernelIdeal.Hand

end
-- ==== Proof.Region2.lean ====
/-
  Kernel region 2, the dense half of a layer: the features as the region finds them, scaled row by row and multiplied by the weights. The grid has 25 points; point `t` reads rows 2000·t … 2000·t + 1999 of the two row-wise
  operands and the whole third operand, and writes back rows 2000·t … 2000·t + 1999 of the result. So the result array
  after the region is one function of the three arrays the region is entered with, whatever those are.
-/
import proofs.«134169_j66245575573518_1_alg».proof.Proof.Gen.KernelIdeal.Frame
import proofs.«134169_j66245575573518_1_alg».proof.Proof.Bodies
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets2 : (![0, 0] : Fin 2 → Nat) = fun _ => 0 := funext fun a => by fin_cases a <;> rfl

/-- The windows' block positions at every grid point: the row-wise operands and the result at block row `t`, the third
    operand at its one block. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The third operand's block at any point is the whole array. -/
theorem whole_blk2 (c : Dev nD) (t : Fin cfg2.N) : (iblk2 V c 2 t : Vec Ideal S128x128 .bf16) = V c main_v29 := by
  obtain ⟨-, -, -, -, e4, e5, -, -⟩ := idx_facts2 t
  funext y
  show V c main_v29 (((cfg2.win 2).blk t).view.emb y) = V c main_v29 y
  refine congrArg (V c main_v29) (funext fun a => Fin.ext ?_)
  match a with
  | ⟨0, _⟩ => show win2_2.index t (0 : Fin 2) * 128 + 1 * (y 0).val = (y 0).val; rw [e4]; omega
  | ⟨1, _⟩ => show win2_2.index t (1 : Fin 2) * 128 + 1 * (y 1).val = (y 1).val; rw [e5]; omega

/-- What point `t` writes back is block `t` of the whole-array function of the region's entry contents. -/
theorem flushed2 (c : Dev nD) (t : Fin cfg2.N) :
    (dat2 V c).flushed 3 t = ((cfg2.win 3).blk t).view.read (Elt Ideal) (Cert.Gcn.lin128 (φ := .bf16) (V c main_v28) (V c main_v11) (V c main_v29)) := by
  obtain ⟨e0, e1, e2, e3, -, -, e6, e7⟩ := idx_facts2 t
  show (cfg2.win 3).cut (grid2.coords t) ((dat2 V c).after 3 t) = _
  rw [after2_3]
  unfold out2_3
  rw [View.canon_unit_zero zero_offsets2]
  simp only [View.ld_unit_zero (S := S2000x128) zero_offsets2, View.ld_unit_zero (S := S2000x1) zero_offsets2, View.ld_unit_zero (S := S128x128) zero_offsets2]
  funext j
  have hi0 : ((((cfg2.win 3).blk t).view.emb j) 0).val = win2_3.index t (0 : Fin 2) * 2000 + 1 * (j 0).val := rfl
  have hi1 : ((((cfg2.win 3).blk t).view.emb j) 1).val = win2_3.index t (1 : Fin 2) * 128 + 1 * (j 1).val := rfl
  refine dense2_point (iblk2 V c 0 t) (iblk2 V c 1 t) (iblk2 V c 2 t) (V c main_v28) (V c main_v11) (V c main_v29) j
    (((cfg2.win 3).blk t).view.emb j) (fun y z hy hz hyz => ?_) (fun y z hy hz => ?_) (whole_blk2 V c t) (by rw [hi1, e7]; omega)
  · show V c main_v28 (((cfg2.win 0).blk t).view.emb y) = V c main_v28 z
    refine congrArg (V c main_v28) (funext fun a => Fin.ext ?_)
    match a with
    | ⟨0, _⟩ => show win2_0.index t (0 : Fin 2) * 2000 + 1 * (y 0).val = (z 0).val; rw [hz, hi0, hy, e0, e6]
    | ⟨1, _⟩ => show win2_0.index t (1 : Fin 2) * 128 + 1 * (y 1).val = (z 1).val; rw [e1, ← hyz]; omega
  · show V c main_v11 (((cfg2.win 1).blk t).view.emb y) = V c main_v11 z
    refine congrArg (V c main_v11) (funext fun a => Fin.ext ?_)
    match a with
    | ⟨0, _⟩ => show win2_1.index t (0 : Fin 2) * 2000 + 1 * (y 0).val = (z 0).val; rw [hz, hi0, hy, e2, e6]
    | ⟨1, _⟩ =>
      show win2_1.index t (1 : Fin 2) * 1 + 1 * (y 1).val = (z 1).val
      have hy1 : (y 1).val < 1 := (y 1).isLt
      have hz1 : (z 1).val < 1 := (z 1).isLt
      rw [e3]; omega

/-- Every index of the result array lies in the block of the point its row belongs to. -/
theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : grid2.N = 25 := N_2
  obtain ⟨t, ht⟩ : ∃ t : Fin cfg2.N, t.val = (i 0).val / 2000 := ⟨⟨(i 0).val / 2000, by show _ < grid2.N; omega⟩, rfl⟩
  obtain ⟨-, -, -, -, -, -, e6, e7⟩ := idx_facts2 t
  refine ⟨t, flush2_3 t, ?_⟩
  show i ∈ ((View.whole main_v30).slice (win2_3.rect t)).set
  rw [View.set_slice_whole, Rect.mem_set_unit]
  intro a
  match a with
  | ⟨0, _⟩ =>
    show win2_3.index t (0 : Fin 2) * 2000 ≤ (i 0).val ∧ (i 0).val < win2_3.index t (0 : Fin 2) * 2000 + 2000
    rw [e6, ht]; omega
  | ⟨1, _⟩ =>
    show win2_3.index t (1 : Fin 2) * 128 ≤ (i 1).val ∧ (i 1).val < win2_3.index t (1 : Fin 2) * 128 + 128
    rw [e7]; omega

/-- The result array after the region: the whole-array function of the three arrays the region was entered with. -/
theorem final2 (c : Dev nD) : (dat2 V c).arrAt 3 cfg2.N = Cert.Gcn.lin128 (φ := .bf16) (V c main_v28) (V c main_v11) (V c main_v29) :=
  (dat2 V c).arrAt_eq_of_cover 3 (Cert.Gcn.lin128 (φ := .bf16) (V c main_v28) (V c main_v11) (V c main_v29)) (fun t _ => flushed2 V c t) (cover2)

end Cert.KernelIdeal.Hand

end
-- ==== Proof.Region3.lean ====
/-
  Kernel region 3, the closing half of a layer: the aggregated rows as the region finds them, scaled row by row, plus the bias row, clamped below at zero. The grid has 25 points; point `t` reads rows 2000·t … 2000·t + 1999 of the two row-wise
  operands and the whole third operand, and writes back rows 2000·t … 2000·t + 1999 of the result. So the result array
  after the region is one function of the three arrays the region is entered with, whatever those are.
-/
import proofs.«134169_j66245575573518_1_alg».proof.Proof.Gen.KernelIdeal.Frame
import proofs.«134169_j66245575573518_1_alg».proof.Proof.Bodies
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets3 : (![0, 0] : Fin 2 → Nat) = fun _ => 0 := funext fun a => by fin_cases a <;> rfl

/-- The windows' block positions at every grid point: the row-wise operands and the result at block row `t`, the third
    operand at its one block. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The third operand's block at any point is the whole array. -/
theorem whole_blk3 (c : Dev nD) (t : Fin cfg3.N) : (iblk3 V c 2 t : Vec Ideal S1x128 .f32) = V c main_v41 := by
  obtain ⟨-, -, -, -, e4, e5, -, -⟩ := idx_facts3 t
  funext y
  show V c main_v41 (((cfg3.win 2).blk t).view.emb y) = V c main_v41 y
  refine congrArg (V c main_v41) (funext fun a => Fin.ext ?_)
  match a with
  | ⟨0, _⟩ => show win3_2.index t (0 : Fin 2) * 1 + 1 * (y 0).val = (y 0).val; rw [e4]; omega
  | ⟨1, _⟩ => show win3_2.index t (1 : Fin 2) * 128 + 1 * (y 1).val = (y 1).val; rw [e5]; omega

/-- What point `t` writes back is block `t` of the whole-array function of the region's entry contents. -/
theorem flushed3 (c : Dev nD) (t : Fin cfg3.N) :
    (dat3 V c).flushed 3 t = ((cfg3.win 3).blk t).view.read (Elt Ideal) (Cert.Gcn.post128 (V c main_v40) (V c main_v14) (V c main_v41)) := by
  obtain ⟨e0, e1, e2, e3, -, -, e6, e7⟩ := idx_facts3 t
  show (cfg3.win 3).cut (grid3.coords t) ((dat3 V c).after 3 t) = _
  rw [after3_3]
  unfold out3_3
  rw [View.canon_unit_zero zero_offsets3]
  simp only [View.ld_unit_zero (S := S2000x128) zero_offsets3, View.ld_unit_zero (S := S2000x1) zero_offsets3, View.ld_unit_zero (S := S1x128) zero_offsets3]
  funext j
  have hi0 : ((((cfg3.win 3).blk t).view.emb j) 0).val = win3_3.index t (0 : Fin 2) * 2000 + 1 * (j 0).val := rfl
  have hi1 : ((((cfg3.win 3).blk t).view.emb j) 1).val = win3_3.index t (1 : Fin 2) * 128 + 1 * (j 1).val := rfl
  refine post3_point (iblk3 V c 0 t) (iblk3 V c 1 t) (iblk3 V c 2 t) (V c main_v40) (V c main_v14) (V c main_v41) j
    (((cfg3.win 3).blk t).view.emb j) ?_ (fun y z hy hz => ?_) (whole_blk3 V c t) (by rw [hi1, e7]; omega)
  · show V c main_v40 (((cfg3.win 0).blk t).view.emb j) = V c main_v40 (((cfg3.win 3).blk t).view.emb j)
    refine congrArg (V c main_v40) (funext fun a => Fin.ext ?_)
    match a with
    | ⟨0, _⟩ => show win3_0.index t (0 : Fin 2) * 2000 + 1 * (j 0).val = win3_3.index t (0 : Fin 2) * 2000 + 1 * (j 0).val; rw [e0, e6]
    | ⟨1, _⟩ => show win3_0.index t (1 : Fin 2) * 128 + 1 * (j 1).val = win3_3.index t (1 : Fin 2) * 128 + 1 * (j 1).val; rw [e1, e7]
  · show V c main_v14 (((cfg3.win 1).blk t).view.emb y) = V c main_v14 z
    refine congrArg (V c main_v14) (funext fun a => Fin.ext ?_)
    match a with
    | ⟨0, _⟩ => show win3_1.index t (0 : Fin 2) * 2000 + 1 * (y 0).val = (z 0).val; rw [hz, hi0, hy, e2, e6]
    | ⟨1, _⟩ =>
      show win3_1.index t (1 : Fin 2) * 1 + 1 * (y 1).val = (z 1).val
      have hy1 : (y 1).val < 1 := (y 1).isLt
      have hz1 : (z 1).val < 1 := (z 1).isLt
      rw [e3]; omega

/-- Every index of the result array lies in the block of the point its row belongs to. -/
theorem cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : grid3.N = 25 := N_3
  obtain ⟨t, ht⟩ : ∃ t : Fin cfg3.N, t.val = (i 0).val / 2000 := ⟨⟨(i 0).val / 2000, by show _ < grid3.N; omega⟩, rfl⟩
  obtain ⟨-, -, -, -, -, -, e6, e7⟩ := idx_facts3 t
  refine ⟨t, flush3_3 t, ?_⟩
  show i ∈ ((View.whole main_v42).slice (win3_3.rect t)).set
  rw [View.set_slice_whole, Rect.mem_set_unit]
  intro a
  match a with
  | ⟨0, _⟩ =>
    show win3_3.index t (0 : Fin 2) * 2000 ≤ (i 0).val ∧ (i 0).val < win3_3.index t (0 : Fin 2) * 2000 + 2000
    rw [e6, ht]; omega
  | ⟨1, _⟩ =>
    show win3_3.index t (1 : Fin 2) * 128 ≤ (i 1).val ∧ (i 1).val < win3_3.index t (1 : Fin 2) * 128 + 128
    rw [e7]; omega

/-- The result array after the region: the whole-array function of the three arrays the region was entered with. -/
theorem final3 (c : Dev nD) : (dat3 V c).arrAt 3 cfg3.N = Cert.Gcn.post128 (V c main_v40) (V c main_v14) (V c main_v41) :=
  (dat3 V c).arrAt_eq_of_cover 3 (Cert.Gcn.post128 (V c main_v40) (V c main_v14) (V c main_v41)) (fun t _ => flushed3 V c t) (cover3)

end Cert.KernelIdeal.Hand

end
-- ==== Proof.Region4.lean ====
/-
  Kernel region 4, the dense half of a layer: the features as the region finds them, scaled row by row and multiplied by the weights. The grid has 25 points; point `t` reads rows 2000·t … 2000·t + 1999 of the two row-wise
  operands and the whole third operand, and writes back rows 2000·t … 2000·t + 1999 of the result. So the result array
  after the region is one function of the three arrays the region is entered with, whatever those are.
-/
import proofs.«134169_j66245575573518_1_alg».proof.Proof.Gen.KernelIdeal.Frame
import proofs.«134169_j66245575573518_1_alg».proof.Proof.Bodies
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets4 : (![0, 0] : Fin 2 → Nat) = fun _ => 0 := funext fun a => by fin_cases a <;> rfl

/-- The windows' block positions at every grid point: the row-wise operands and the result at block row `t`, the third
    operand at its one block. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The third operand's block at any point is the whole array. -/
theorem whole_blk4 (c : Dev nD) (t : Fin cfg4.N) : (iblk4 V c 2 t : Vec Ideal S128x128 .bf16) = V c main_v43 := by
  obtain ⟨-, -, -, -, e4, e5, -, -⟩ := idx_facts4 t
  funext y
  show V c main_v43 (((cfg4.win 2).blk t).view.emb y) = V c main_v43 y
  refine congrArg (V c main_v43) (funext fun a => Fin.ext ?_)
  match a with
  | ⟨0, _⟩ => show win4_2.index t (0 : Fin 2) * 128 + 1 * (y 0).val = (y 0).val; rw [e4]; omega
  | ⟨1, _⟩ => show win4_2.index t (1 : Fin 2) * 128 + 1 * (y 1).val = (y 1).val; rw [e5]; omega

/-- What point `t` writes back is block `t` of the whole-array function of the region's entry contents. -/
theorem flushed4 (c : Dev nD) (t : Fin cfg4.N) :
    (dat4 V c).flushed 3 t = ((cfg4.win 3).blk t).view.read (Elt Ideal) (Cert.Gcn.lin128 (φ := .bf16) (V c main_v42) (V c main_v11) (V c main_v43)) := by
  obtain ⟨e0, e1, e2, e3, -, -, e6, e7⟩ := idx_facts4 t
  show (cfg4.win 3).cut (grid4.coords t) ((dat4 V c).after 3 t) = _
  rw [after4_3]
  unfold out4_3
  rw [View.canon_unit_zero zero_offsets4]
  simp only [View.ld_unit_zero (S := S2000x128) zero_offsets4, View.ld_unit_zero (S := S2000x1) zero_offsets4, View.ld_unit_zero (S := S128x128) zero_offsets4]
  funext j
  have hi0 : ((((cfg4.win 3).blk t).view.emb j) 0).val = win4_3.index t (0 : Fin 2) * 2000 + 1 * (j 0).val := rfl
  have hi1 : ((((cfg4.win 3).blk t).view.emb j) 1).val = win4_3.index t (1 : Fin 2) * 128 + 1 * (j 1).val := rfl
  refine dense4_point (iblk4 V c 0 t) (iblk4 V c 1 t) (iblk4 V c 2 t) (V c main_v42) (V c main_v11) (V c main_v43) j
    (((cfg4.win 3).blk t).view.emb j) (fun y z hy hz hyz => ?_) (fun y z hy hz => ?_) (whole_blk4 V c t) (by rw [hi1, e7]; omega)
  · show V c main_v42 (((cfg4.win 0).blk t).view.emb y) = V c main_v42 z
    refine congrArg (V c main_v42) (funext fun a => Fin.ext ?_)
    match a with
    | ⟨0, _⟩ => show win4_0.index t (0 : Fin 2) * 2000 + 1 * (y 0).val = (z 0).val; rw [hz, hi0, hy, e0, e6]
    | ⟨1, _⟩ => show win4_0.index t (1 : Fin 2) * 128 + 1 * (y 1).val = (z 1).val; rw [e1, ← hyz]; omega
  · show V c main_v11 (((cfg4.win 1).blk t).view.emb y) = V c main_v11 z
    refine congrArg (V c main_v11) (funext fun a => Fin.ext ?_)
    match a with
    | ⟨0, _⟩ => show win4_1.index t (0 : Fin 2) * 2000 + 1 * (y 0).val = (z 0).val; rw [hz, hi0, hy, e2, e6]
    | ⟨1, _⟩ =>
      show win4_1.index t (1 : Fin 2) * 1 + 1 * (y 1).val = (z 1).val
      have hy1 : (y 1).val < 1 := (y 1).isLt
      have hz1 : (z 1).val < 1 := (z 1).isLt
      rw [e3]; omega

/-- Every index of the result array lies in the block of the point its row belongs to. -/
theorem cover4 (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  have hN : grid4.N = 25 := N_4
  obtain ⟨t, ht⟩ : ∃ t : Fin cfg4.N, t.val = (i 0).val / 2000 := ⟨⟨(i 0).val / 2000, by show _ < grid4.N; omega⟩, rfl⟩
  obtain ⟨-, -, -, -, -, -, e6, e7⟩ := idx_facts4 t
  refine ⟨t, flush4_3 t, ?_⟩
  show i ∈ ((View.whole main_v44).slice (win4_3.rect t)).set
  rw [View.set_slice_whole, Rect.mem_set_unit]
  intro a
  match a with
  | ⟨0, _⟩ =>
    show win4_3.index t (0 : Fin 2) * 2000 ≤ (i 0).val ∧ (i 0).val < win4_3.index t (0 : Fin 2) * 2000 + 2000
    rw [e6, ht]; omega
  | ⟨1, _⟩ =>
    show win4_3.index t (1 : Fin 2) * 128 ≤ (i 1).val ∧ (i 1).val < win4_3.index t (1 : Fin 2) * 128 + 128
    rw [e7]; omega

/-- The result array after the region: the whole-array function of the three arrays the region was entered with. -/
theorem final4 (c : Dev nD) : (dat4 V c).arrAt 3 cfg4.N = Cert.Gcn.lin128 (φ := .bf16) (V c main_v42) (V c main_v11) (V c main_v43) :=
  (dat4 V c).arrAt_eq_of_cover 3 (Cert.Gcn.lin128 (φ := .bf16) (V c main_v42) (V c main_v11) (V c main_v43)) (fun t _ => flushed4 V c t) (cover4)

end Cert.KernelIdeal.Hand

end
-- ==== Proof.Region5.lean ====
/-
  Kernel region 5, the closing half of a layer: the aggregated rows as the region finds them, scaled row by row, plus the bias row, clamped below at zero. The grid has 25 points; point `t` reads rows 2000·t … 2000·t + 1999 of the two row-wise
  operands and the whole third operand, and writes back rows 2000·t … 2000·t + 1999 of the result. So the result array
  after the region is one function of the three arrays the region is entered with, whatever those are.
-/
import proofs.«134169_j66245575573518_1_alg».proof.Proof.Gen.KernelIdeal.Frame
import proofs.«134169_j66245575573518_1_alg».proof.Proof.Bodies
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets5 : (![0, 0] : Fin 2 → Nat) = fun _ => 0 := funext fun a => by fin_cases a <;> rfl

/-- The windows' block positions at every grid point: the row-wise operands and the result at block row `t`, the third
    operand at its one block. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The third operand's block at any point is the whole array. -/
theorem whole_blk5 (c : Dev nD) (t : Fin cfg5.N) : (iblk5 V c 2 t : Vec Ideal S1x128 .f32) = V c main_v55 := by
  obtain ⟨-, -, -, -, e4, e5, -, -⟩ := idx_facts5 t
  funext y
  show V c main_v55 (((cfg5.win 2).blk t).view.emb y) = V c main_v55 y
  refine congrArg (V c main_v55) (funext fun a => Fin.ext ?_)
  match a with
  | ⟨0, _⟩ => show win5_2.index t (0 : Fin 2) * 1 + 1 * (y 0).val = (y 0).val; rw [e4]; omega
  | ⟨1, _⟩ => show win5_2.index t (1 : Fin 2) * 128 + 1 * (y 1).val = (y 1).val; rw [e5]; omega

/-- What point `t` writes back is block `t` of the whole-array function of the region's entry contents. -/
theorem flushed5 (c : Dev nD) (t : Fin cfg5.N) :
    (dat5 V c).flushed 3 t = ((cfg5.win 3).blk t).view.read (Elt Ideal) (Cert.Gcn.post128 (V c main_v54) (V c main_v14) (V c main_v55)) := by
  obtain ⟨e0, e1, e2, e3, -, -, e6, e7⟩ := idx_facts5 t
  show (cfg5.win 3).cut (grid5.coords t) ((dat5 V c).after 3 t) = _
  rw [after5_3]
  unfold out5_3
  rw [View.canon_unit_zero zero_offsets5]
  simp only [View.ld_unit_zero (S := S2000x128) zero_offsets5, View.ld_unit_zero (S := S2000x1) zero_offsets5, View.ld_unit_zero (S := S1x128) zero_offsets5]
  funext j
  have hi0 : ((((cfg5.win 3).blk t).view.emb j) 0).val = win5_3.index t (0 : Fin 2) * 2000 + 1 * (j 0).val := rfl
  have hi1 : ((((cfg5.win 3).blk t).view.emb j) 1).val = win5_3.index t (1 : Fin 2) * 128 + 1 * (j 1).val := rfl
  refine post5_point (iblk5 V c 0 t) (iblk5 V c 1 t) (iblk5 V c 2 t) (V c main_v54) (V c main_v14) (V c main_v55) j
    (((cfg5.win 3).blk t).view.emb j) ?_ (fun y z hy hz => ?_) (whole_blk5 V c t) (by rw [hi1, e7]; omega)
  · show V c main_v54 (((cfg5.win 0).blk t).view.emb j) = V c main_v54 (((cfg5.win 3).blk t).view.emb j)
    refine congrArg (V c main_v54) (funext fun a => Fin.ext ?_)
    match a with
    | ⟨0, _⟩ => show win5_0.index t (0 : Fin 2) * 2000 + 1 * (j 0).val = win5_3.index t (0 : Fin 2) * 2000 + 1 * (j 0).val; rw [e0, e6]
    | ⟨1, _⟩ => show win5_0.index t (1 : Fin 2) * 128 + 1 * (j 1).val = win5_3.index t (1 : Fin 2) * 128 + 1 * (j 1).val; rw [e1, e7]
  · show V c main_v14 (((cfg5.win 1).blk t).view.emb y) = V c main_v14 z
    refine congrArg (V c main_v14) (funext fun a => Fin.ext ?_)
    match a with
    | ⟨0, _⟩ => show win5_1.index t (0 : Fin 2) * 2000 + 1 * (y 0).val = (z 0).val; rw [hz, hi0, hy, e2, e6]
    | ⟨1, _⟩ =>
      show win5_1.index t (1 : Fin 2) * 1 + 1 * (y 1).val = (z 1).val
      have hy1 : (y 1).val < 1 := (y 1).isLt
      have hz1 : (z 1).val < 1 := (z 1).isLt
      rw [e3]; omega

/-- Every index of the result array lies in the block of the point its row belongs to. -/
theorem cover5 (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  have hN : grid5.N = 25 := N_5
  obtain ⟨t, ht⟩ : ∃ t : Fin cfg5.N, t.val = (i 0).val / 2000 := ⟨⟨(i 0).val / 2000, by show _ < grid5.N; omega⟩, rfl⟩
  obtain ⟨-, -, -, -, -, -, e6, e7⟩ := idx_facts5 t
  refine ⟨t, flush5_3 t, ?_⟩
  show i ∈ ((View.whole main_v56).slice (win5_3.rect t)).set
  rw [View.set_slice_whole, Rect.mem_set_unit]
  intro a
  match a with
  | ⟨0, _⟩ =>
    show win5_3.index t (0 : Fin 2) * 2000 ≤ (i 0).val ∧ (i 0).val < win5_3.index t (0 : Fin 2) * 2000 + 2000
    rw [e6, ht]; omega
  | ⟨1, _⟩ =>
    show win5_3.index t (1 : Fin 2) * 128 ≤ (i 1).val ∧ (i 1).val < win5_3.index t (1 : Fin 2) * 128 + 128
    rw [e7]; omega

/-- The result array after the region: the whole-array function of the three arrays the region was entered with. -/
theorem final5 (c : Dev nD) : (dat5 V c).arrAt 3 cfg5.N = Cert.Gcn.post128 (V c main_v54) (V c main_v14) (V c main_v55) :=
  (dat5 V c).arrAt_eq_of_cover 3 (Cert.Gcn.post128 (V c main_v54) (V c main_v14) (V c main_v55)) (fun t _ => flushed5 V c t) (cover5)

end Cert.KernelIdeal.Hand

end
-- ==== Proof.Region6.lean ====
/-
  Kernel region 6, the dense half of a layer: the features as the region finds them, scaled row by row and multiplied by the weights. The grid has 25 points; point `t` reads rows 2000·t … 2000·t + 1999 of the two row-wise
  operands and the whole third operand, and writes back rows 2000·t … 2000·t + 1999 of the result. So the result array
  after the region is one function of the three arrays the region is entered with, whatever those are.
-/
import proofs.«134169_j66245575573518_1_alg».proof.Proof.Gen.KernelIdeal.Frame
import proofs.«134169_j66245575573518_1_alg».proof.Proof.Bodies
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets6 : (![0, 0] : Fin 2 → Nat) = fun _ => 0 := funext fun a => by fin_cases a <;> rfl

/-- The windows' block positions at every grid point: the row-wise operands and the result at block row `t`, the third
    operand at its one block. -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The third operand's block at any point is the whole array. -/
theorem whole_blk6 (c : Dev nD) (t : Fin cfg6.N) : (iblk6 V c 2 t : Vec Ideal S128x64 .bf16) = V c main_v57 := by
  obtain ⟨-, -, -, -, e4, e5, -, -⟩ := idx_facts6 t
  funext y
  show V c main_v57 (((cfg6.win 2).blk t).view.emb y) = V c main_v57 y
  refine congrArg (V c main_v57) (funext fun a => Fin.ext ?_)
  match a with
  | ⟨0, _⟩ => show win6_2.index t (0 : Fin 2) * 128 + 1 * (y 0).val = (y 0).val; rw [e4]; omega
  | ⟨1, _⟩ => show win6_2.index t (1 : Fin 2) * 64 + 1 * (y 1).val = (y 1).val; rw [e5]; omega

/-- What point `t` writes back is block `t` of the whole-array function of the region's entry contents. -/
theorem flushed6 (c : Dev nD) (t : Fin cfg6.N) :
    (dat6 V c).flushed 3 t = ((cfg6.win 3).blk t).view.read (Elt Ideal) (Cert.Gcn.lin64 (φ := .bf16) (V c main_v56) (V c main_v11) (V c main_v57)) := by
  obtain ⟨e0, e1, e2, e3, -, -, e6, e7⟩ := idx_facts6 t
  show (cfg6.win 3).cut (grid6.coords t) ((dat6 V c).after 3 t) = _
  rw [after6_3]
  unfold out6_3
  rw [View.canon_unit_zero zero_offsets6]
  simp only [View.ld_unit_zero (S := S2000x128) zero_offsets6, View.ld_unit_zero (S := S2000x1) zero_offsets6, View.ld_unit_zero (S := S128x64) zero_offsets6]
  funext j
  have hi0 : ((((cfg6.win 3).blk t).view.emb j) 0).val = win6_3.index t (0 : Fin 2) * 2000 + 1 * (j 0).val := rfl
  have hi1 : ((((cfg6.win 3).blk t).view.emb j) 1).val = win6_3.index t (1 : Fin 2) * 64 + 1 * (j 1).val := rfl
  refine dense6_point (iblk6 V c 0 t) (iblk6 V c 1 t) (iblk6 V c 2 t) (V c main_v56) (V c main_v11) (V c main_v57) j
    (((cfg6.win 3).blk t).view.emb j) (fun y z hy hz hyz => ?_) (fun y z hy hz => ?_) (whole_blk6 V c t) (by rw [hi1, e7]; omega)
  · show V c main_v56 (((cfg6.win 0).blk t).view.emb y) = V c main_v56 z
    refine congrArg (V c main_v56) (funext fun a => Fin.ext ?_)
    match a with
    | ⟨0, _⟩ => show win6_0.index t (0 : Fin 2) * 2000 + 1 * (y 0).val = (z 0).val; rw [hz, hi0, hy, e0, e6]
    | ⟨1, _⟩ => show win6_0.index t (1 : Fin 2) * 128 + 1 * (y 1).val = (z 1).val; rw [e1, ← hyz]; omega
  · show V c main_v11 (((cfg6.win 1).blk t).view.emb y) = V c main_v11 z
    refine congrArg (V c main_v11) (funext fun a => Fin.ext ?_)
    match a with
    | ⟨0, _⟩ => show win6_1.index t (0 : Fin 2) * 2000 + 1 * (y 0).val = (z 0).val; rw [hz, hi0, hy, e2, e6]
    | ⟨1, _⟩ =>
      show win6_1.index t (1 : Fin 2) * 1 + 1 * (y 1).val = (z 1).val
      have hy1 : (y 1).val < 1 := (y 1).isLt
      have hz1 : (z 1).val < 1 := (z 1).isLt
      rw [e3]; omega

/-- Every index of the result array lies in the block of the point its row belongs to. -/
theorem cover6 (i : S50000x64.Idx) :
    ∃ t : Fin cfg6.N, (cfg6.win 3).flush t = true ∧ i ∈ ((cfg6.win 3).blk t).view.set := by
  have hi0 : (i 0).val < 50000 := (i 0).isLt
  have hi1 : (i 1).val < 64 := (i 1).isLt
  have hN : grid6.N = 25 := N_6
  obtain ⟨t, ht⟩ : ∃ t : Fin cfg6.N, t.val = (i 0).val / 2000 := ⟨⟨(i 0).val / 2000, by show _ < grid6.N; omega⟩, rfl⟩
  obtain ⟨-, -, -, -, -, -, e6, e7⟩ := idx_facts6 t
  refine ⟨t, flush6_3 t, ?_⟩
  show i ∈ ((View.whole main_v58).slice (win6_3.rect t)).set
  rw [View.set_slice_whole, Rect.mem_set_unit]
  intro a
  match a with
  | ⟨0, _⟩ =>
    show win6_3.index t (0 : Fin 2) * 2000 ≤ (i 0).val ∧ (i 0).val < win6_3.index t (0 : Fin 2) * 2000 + 2000
    rw [e6, ht]; omega
  | ⟨1, _⟩ =>
    show win6_3.index t (1 : Fin 2) * 64 ≤ (i 1).val ∧ (i 1).val < win6_3.index t (1 : Fin 2) * 64 + 64
    rw [e7]; omega

/-- The result array after the region: the whole-array function of the three arrays the region was entered with. -/
theorem final6 (c : Dev nD) : (dat6 V c).arrAt 3 cfg6.N = Cert.Gcn.lin64 (φ := .bf16) (V c main_v56) (V c main_v11) (V c main_v57) :=
  (dat6 V c).arrAt_eq_of_cover 3 (Cert.Gcn.lin64 (φ := .bf16) (V c main_v56) (V c main_v11) (V c main_v57)) (fun t _ => flushed6 V c t) (cover6)

end Cert.KernelIdeal.Hand

end
-- ==== Proof.Region7.lean ====
/-
  Kernel region 7, the closing half of a layer: the aggregated rows as the region finds them, scaled row by row, plus the bias row. The grid has 25 points; point `t` reads rows 2000·t … 2000·t + 1999 of the two row-wise
  operands and the whole third operand, and writes back rows 2000·t … 2000·t + 1999 of the result. So the result array
  after the region is one function of the three arrays the region is entered with, whatever those are.
-/
import proofs.«134169_j66245575573518_1_alg».proof.Proof.Gen.KernelIdeal.Frame
import proofs.«134169_j66245575573518_1_alg».proof.Proof.Bodies
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets7 : (![0, 0] : Fin 2 → Nat) = fun _ => 0 := funext fun a => by fin_cases a <;> rfl

/-- The windows' block positions at every grid point: the row-wise operands and the result at block row `t`, the third
    operand at its one block. -/
theorem idx_facts7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- The third operand's block at any point is the whole array. -/
theorem whole_blk7 (c : Dev nD) (t : Fin cfg7.N) : (iblk7 V c 2 t : Vec Ideal S1x64 .f32) = V c main_v69 := by
  obtain ⟨-, -, -, -, e4, e5, -, -⟩ := idx_facts7 t
  funext y
  show V c main_v69 (((cfg7.win 2).blk t).view.emb y) = V c main_v69 y
  refine congrArg (V c main_v69) (funext fun a => Fin.ext ?_)
  match a with
  | ⟨0, _⟩ => show win7_2.index t (0 : Fin 2) * 1 + 1 * (y 0).val = (y 0).val; rw [e4]; omega
  | ⟨1, _⟩ => show win7_2.index t (1 : Fin 2) * 64 + 1 * (y 1).val = (y 1).val; rw [e5]; omega

/-- What point `t` writes back is block `t` of the whole-array function of the region's entry contents. -/
theorem flushed7 (c : Dev nD) (t : Fin cfg7.N) :
    (dat7 V c).flushed 3 t = ((cfg7.win 3).blk t).view.read (Elt Ideal) (Cert.Gcn.post64 (V c main_v68) (V c main_v14) (V c main_v69)) := by
  obtain ⟨e0, e1, e2, e3, -, -, e6, e7⟩ := idx_facts7 t
  show (cfg7.win 3).cut (grid7.coords t) ((dat7 V c).after 3 t) = _
  rw [after7_3]
  unfold out7_3
  rw [View.canon_unit_zero zero_offsets7]
  simp only [View.ld_unit_zero (S := S2000x64) zero_offsets7, View.ld_unit_zero (S := S2000x1) zero_offsets7, View.ld_unit_zero (S := S1x64) zero_offsets7]
  funext j
  have hi0 : ((((cfg7.win 3).blk t).view.emb j) 0).val = win7_3.index t (0 : Fin 2) * 2000 + 1 * (j 0).val := rfl
  have hi1 : ((((cfg7.win 3).blk t).view.emb j) 1).val = win7_3.index t (1 : Fin 2) * 64 + 1 * (j 1).val := rfl
  refine post7_point (iblk7 V c 0 t) (iblk7 V c 1 t) (iblk7 V c 2 t) (V c main_v68) (V c main_v14) (V c main_v69) j
    (((cfg7.win 3).blk t).view.emb j) ?_ (fun y z hy hz => ?_) (whole_blk7 V c t) (by rw [hi1, e7]; omega)
  · show V c main_v68 (((cfg7.win 0).blk t).view.emb j) = V c main_v68 (((cfg7.win 3).blk t).view.emb j)
    refine congrArg (V c main_v68) (funext fun a => Fin.ext ?_)
    match a with
    | ⟨0, _⟩ => show win7_0.index t (0 : Fin 2) * 2000 + 1 * (j 0).val = win7_3.index t (0 : Fin 2) * 2000 + 1 * (j 0).val; rw [e0, e6]
    | ⟨1, _⟩ => show win7_0.index t (1 : Fin 2) * 64 + 1 * (j 1).val = win7_3.index t (1 : Fin 2) * 64 + 1 * (j 1).val; rw [e1, e7]
  · show V c main_v14 (((cfg7.win 1).blk t).view.emb y) = V c main_v14 z
    refine congrArg (V c main_v14) (funext fun a => Fin.ext ?_)
    match a with
    | ⟨0, _⟩ => show win7_1.index t (0 : Fin 2) * 2000 + 1 * (y 0).val = (z 0).val; rw [hz, hi0, hy, e2, e6]
    | ⟨1, _⟩ =>
      show win7_1.index t (1 : Fin 2) * 1 + 1 * (y 1).val = (z 1).val
      have hy1 : (y 1).val < 1 := (y 1).isLt
      have hz1 : (z 1).val < 1 := (z 1).isLt
      rw [e3]; omega

/-- Every index of the result array lies in the block of the point its row belongs to. -/
theorem cover7 (i : S50000x64.Idx) :
    ∃ t : Fin cfg7.N, (cfg7.win 3).flush t = true ∧ i ∈ ((cfg7.win 3).blk t).view.set := by
  have hi0 : (i 0).val < 50000 := (i 0).isLt
  have hi1 : (i 1).val < 64 := (i 1).isLt
  have hN : grid7.N = 25 := N_7
  obtain ⟨t, ht⟩ : ∃ t : Fin cfg7.N, t.val = (i 0).val / 2000 := ⟨⟨(i 0).val / 2000, by show _ < grid7.N; omega⟩, rfl⟩
  obtain ⟨-, -, -, -, -, -, e6, e7⟩ := idx_facts7 t
  refine ⟨t, flush7_3 t, ?_⟩
  show i ∈ ((View.whole main_v70).slice (win7_3.rect t)).set
  rw [View.set_slice_whole, Rect.mem_set_unit]
  intro a
  match a with
  | ⟨0, _⟩ =>
    show win7_3.index t (0 : Fin 2) * 2000 ≤ (i 0).val ∧ (i 0).val < win7_3.index t (0 : Fin 2) * 2000 + 2000
    rw [e6, ht]; omega
  | ⟨1, _⟩ =>
    show win7_3.index t (1 : Fin 2) * 64 ≤ (i 1).val ∧ (i 1).val < win7_3.index t (1 : Fin 2) * 64 + 64
    rw [e7]; omega

/-- The result array after the region: the whole-array function of the three arrays the region was entered with. -/
theorem final7 (c : Dev nD) : (dat7 V c).arrAt 3 cfg7.N = Cert.Gcn.post64 (V c main_v68) (V c main_v14) (V c main_v69) :=
  (dat7 V c).arrAt_eq_of_cover 3 (Cert.Gcn.post64 (V c main_v68) (V c main_v14) (V c main_v69)) (fun t _ => flushed7 V c t) (cover7)

end Cert.KernelIdeal.Hand

end
-- ==== Proof.Layers.lean ====
/-
  The kernel program's result as a function of its arguments, layer by layer. Each layer is a dense kernel region (the
  scaled features times the weights), a host stretch (for every edge the source node's row added into the target
  node's row; the bias laid out as a row), a closing kernel region (scale, add the bias, clamp), and a host stretch that
  narrows the next layer's weights. With each region's result as a whole-array function of what the region is entered
  with, the buffers hold the network's arrays one after the other, and the result buffer ends at the whole network.
-/
import proofs.«134169_j66245575573518_1_alg».proof.Proof.Gen.KernelIdeal.Frame
import proofs.«134169_j66245575573518_1_alg».proof.Proof.Net
import proofs.«134169_j66245575573518_1_alg».proof.Proof.Layout
import proofs.«134169_j66245575573518_1_alg».proof.Proof.Entry
import proofs.«134169_j66245575573518_1_alg».proof.Proof.Kept
import proofs.«134169_j66245575573518_1_alg».proof.Proof.Region0
import proofs.«134169_j66245575573518_1_alg».proof.Proof.Region1
import proofs.«134169_j66245575573518_1_alg».proof.Proof.Region2
import proofs.«134169_j66245575573518_1_alg».proof.Proof.Region3
import proofs.«134169_j66245575573518_1_alg».proof.Proof.Region4
import proofs.«134169_j66245575573518_1_alg».proof.Proof.Region5
import proofs.«134169_j66245575573518_1_alg».proof.Proof.Region6
import proofs.«134169_j66245575573518_1_alg».proof.Proof.Region7

set_option maxRecDepth 16384
set_option maxHeartbeats 2000000
set_option Elab.async false

noncomputable section

namespace Cert.KernelIdeal.Hand

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## Layer by layer -/

/-- The features after layer 1, as a function of the arguments. -/
def feat1 (c : Dev nD) : FVec Ideal Cert.ReferenceIdeal.S50000x128 .f32 :=
  Cert.Gcn.post128 (Cert.Gcn.agg128 (Cert.Gcn.lin128 (φ := .f32) (m ((c : Thread nD τ).loc main_arg0)) (Cert.Gcn.degFactor (m ((c : Thread nD τ).loc main_arg1))) (m ((c : Thread nD τ).loc main_arg3))) (m ((c : Thread nD τ).loc main_arg1)) (m ((c : Thread nD τ).loc main_arg2))) (Cert.Gcn.degFactor (m ((c : Thread nD τ).loc main_arg2))) (Cert.Gcn.row128 (m ((c : Thread nD τ).loc main_arg4)))

theorem in_feat0 (c : Dev nD) : W5 m ρ c (Proc.devRef .tc main_arg0) = (m ((c : Thread nD τ).loc main_arg0)) := entry_arg0 m ρ c
theorem in_n0 (c : Dev nD) : W5 m ρ c (Proc.devRef .tc main_v11) = (Cert.Gcn.degFactor (m ((c : Thread nD τ).loc main_arg1))) := entry_v11 m ρ c
theorem in_w0 (c : Dev nD) : W5 m ρ c (Proc.devRef .tc main_v15) = (truncf (F := Ideal) (s := S128x128) (φ := .f32) .bf16 (m ((c : Thread nD τ).loc main_arg3)) bitsLt_bf16_f32) := entry_v15 m ρ c

/-- The dense region of layer 1 leaves the scaled features times the weights. -/
theorem dense_out0 (c : Dev nD) : W6 m ρ c (Proc.devRef .tc main_v16) = (Cert.Gcn.lin128 (φ := .f32) (m ((c : Thread nD τ).loc main_arg0)) (Cert.Gcn.degFactor (m ((c : Thread nD τ).loc main_arg1))) (m ((c : Thread nD τ).loc main_arg3))) := by
  refine ((W6_arr m ρ c 3).trans (final0 (V5 m ρ) c)).trans ?_
  show Cert.Gcn.lin128 (φ := .bf16) (W5 m ρ c (Proc.devRef .tc main_arg0)) (W5 m ρ c (Proc.devRef .tc main_v11)) (W5 m ρ c (Proc.devRef .tc main_v15)) = _
  rw [in_feat0, in_n0, in_w0]
  exact lin128_truncf _ _ _

/-- The stretch after it fetches the source rows and adds them into the target rows … -/
theorem agg_out0 (c : Dev nD) : W7 m ρ c (Proc.devRef .tc main_v26) = (Cert.Gcn.agg128 (Cert.Gcn.lin128 (φ := .f32) (m ((c : Thread nD τ).loc main_arg0)) (Cert.Gcn.degFactor (m ((c : Thread nD τ).loc main_arg1))) (m ((c : Thread nD τ).loc main_arg3))) (m ((c : Thread nD τ).loc main_arg1)) (m ((c : Thread nD τ).loc main_arg2))) := by
  have h : W7 m ρ c (Proc.devRef .tc main_v26) = Cert.Gcn.agg128 (W6 m ρ c (Proc.devRef .tc main_v16)) (W6 m ρ c (Proc.devRef .tc main_arg1)) (W6 m ρ c (Proc.devRef .tc main_arg2)) := by
    show StableHlo.after hostOps1 (W6 m ρ c) (Proc.devRef .tc main_v26) = _
    after_results_simp <;> rfl
  rw [h, dense_out0, at6_arg1, at6_arg2]

/-- … and lays the bias out as a row. -/
theorem bias_out0 (c : Dev nD) : W7 m ρ c (Proc.devRef .tc main_v27) = Cert.Gcn.row128 (m ((c : Thread nD τ).loc main_arg4)) := by
  have h : W7 m ρ c (Proc.devRef .tc main_v27) = shapeCast S1x128 (W6 m ρ c (Proc.devRef .tc main_arg4)) shapeCasts_S128_S1x128 := by
    show StableHlo.after hostOps1 (W6 m ρ c) (Proc.devRef .tc main_v27) = _
    after_results_simp <;> rfl
  rw [h, at6_arg4]
  exact row128_of_reshape _

/-- The closing region of layer 1 leaves the layer's features. -/
theorem post_out0 (c : Dev nD) : W8 m ρ c (Proc.devRef .tc main_v28) = feat1 m c := by
  refine ((W8_arr m ρ c 3).trans (final1 (V7 m ρ) c)).trans ?_
  show Cert.Gcn.post128 (W7 m ρ c (Proc.devRef .tc main_v26)) (W7 m ρ c (Proc.devRef .tc main_v14)) (W7 m ρ c (Proc.devRef .tc main_v27)) = _
  rw [agg_out0, at7_v14, bias_out0]
  rfl

/-- The features after layer 2, as a function of the arguments. -/
def feat2 (c : Dev nD) : FVec Ideal Cert.ReferenceIdeal.S50000x128 .f32 :=
  Cert.Gcn.post128 (Cert.Gcn.agg128 (Cert.Gcn.lin128 (φ := .f32) (feat1 m c) (Cert.Gcn.degFactor (m ((c : Thread nD τ).loc main_arg1))) (m ((c : Thread nD τ).loc main_arg5))) (m ((c : Thread nD τ).loc main_arg1)) (m ((c : Thread nD τ).loc main_arg2))) (Cert.Gcn.degFactor (m ((c : Thread nD τ).loc main_arg2))) (Cert.Gcn.row128 (m ((c : Thread nD τ).loc main_arg6)))

/-- The stretch before layer 2's dense region leaves the features and narrows the layer's weights. -/
theorem in_feat1 (c : Dev nD) : W9 m ρ c (Proc.devRef .tc main_v28) = (feat1 m c) := by
  have h : W9 m ρ c (Proc.devRef .tc main_v28) = W8 m ρ c (Proc.devRef .tc main_v28) := by
    show StableHlo.after hostOps2 (W8 m ρ c) (Proc.devRef .tc main_v28) = _
    after_results_simp
  exact h.trans (post_out0 m ρ c)
theorem in_n1 (c : Dev nD) : W9 m ρ c (Proc.devRef .tc main_v11) = (Cert.Gcn.degFactor (m ((c : Thread nD τ).loc main_arg1))) := at9_v11 m ρ c
theorem in_w1 (c : Dev nD) : W9 m ρ c (Proc.devRef .tc main_v29) = (truncf (F := Ideal) (s := S128x128) (φ := .f32) .bf16 (m ((c : Thread nD τ).loc main_arg5)) bitsLt_bf16_f32) := by
  have h : W9 m ρ c (Proc.devRef .tc main_v29) = (truncf (F := Ideal) (s := S128x128) (φ := .f32) .bf16 (W8 m ρ c (Proc.devRef .tc main_arg5)) bitsLt_bf16_f32) := by
    show StableHlo.after hostOps2 (W8 m ρ c) (Proc.devRef .tc main_v29) = _
    after_results_simp <;> rfl
  rw [h, at8_arg5]

/-- The dense region of layer 2 leaves the scaled features times the weights. -/
theorem dense_out1 (c : Dev nD) : W10 m ρ c (Proc.devRef .tc main_v30) = (Cert.Gcn.lin128 (φ := .f32) (feat1 m c) (Cert.Gcn.degFactor (m ((c : Thread nD τ).loc main_arg1))) (m ((c : Thread nD τ).loc main_arg5))) := by
  refine ((W10_arr m ρ c 3).trans (final2 (V9 m ρ) c)).trans ?_
  show Cert.Gcn.lin128 (φ := .bf16) (W9 m ρ c (Proc.devRef .tc main_v28)) (W9 m ρ c (Proc.devRef .tc main_v11)) (W9 m ρ c (Proc.devRef .tc main_v29)) = _
  rw [in_feat1, in_n1, in_w1]
  exact lin128_truncf _ _ _

/-- The stretch after it fetches the source rows and adds them into the target rows … -/
theorem agg_out1 (c : Dev nD) : W11 m ρ c (Proc.devRef .tc main_v40) = (Cert.Gcn.agg128 (Cert.Gcn.lin128 (φ := .f32) (feat1 m c) (Cert.Gcn.degFactor (m ((c : Thread nD τ).loc main_arg1))) (m ((c : Thread nD τ).loc main_arg5))) (m ((c : Thread nD τ).loc main_arg1)) (m ((c : Thread nD τ).loc main_arg2))) := by
  have h : W11 m ρ c (Proc.devRef .tc main_v40) = Cert.Gcn.agg128 (W10 m ρ c (Proc.devRef .tc main_v30)) (W10 m ρ c (Proc.devRef .tc main_arg1)) (W10 m ρ c (Proc.devRef .tc main_arg2)) := by
    show StableHlo.after hostOps3 (W10 m ρ c) (Proc.devRef .tc main_v40) = _
    after_results_simp <;> rfl
  rw [h, dense_out1, at10_arg1, at10_arg2]

/-- … and lays the bias out as a row. -/
theorem bias_out1 (c : Dev nD) : W11 m ρ c (Proc.devRef .tc main_v41) = Cert.Gcn.row128 (m ((c : Thread nD τ).loc main_arg6)) := by
  have h : W11 m ρ c (Proc.devRef .tc main_v41) = shapeCast S1x128 (W10 m ρ c (Proc.devRef .tc main_arg6)) shapeCasts_S128_S1x128 := by
    show StableHlo.after hostOps3 (W10 m ρ c) (Proc.devRef .tc main_v41) = _
    after_results_simp <;> rfl
  rw [h, at10_arg6]
  exact row128_of_reshape _

/-- The closing region of layer 2 leaves the layer's features. -/
theorem post_out1 (c : Dev nD) : W12 m ρ c (Proc.devRef .tc main_v42) = feat2 m c := by
  refine ((W12_arr m ρ c 3).trans (final3 (V11 m ρ) c)).trans ?_
  show Cert.Gcn.post128 (W11 m ρ c (Proc.devRef .tc main_v40)) (W11 m ρ c (Proc.devRef .tc main_v14)) (W11 m ρ c (Proc.devRef .tc main_v41)) = _
  rw [agg_out1, at11_v14, bias_out1]
  rfl

/-- The features after layer 3, as a function of the arguments. -/
def feat3 (c : Dev nD) : FVec Ideal Cert.ReferenceIdeal.S50000x128 .f32 :=
  Cert.Gcn.post128 (Cert.Gcn.agg128 (Cert.Gcn.lin128 (φ := .f32) (feat2 m c) (Cert.Gcn.degFactor (m ((c : Thread nD τ).loc main_arg1))) (m ((c : Thread nD τ).loc main_arg7))) (m ((c : Thread nD τ).loc main_arg1)) (m ((c : Thread nD τ).loc main_arg2))) (Cert.Gcn.degFactor (m ((c : Thread nD τ).loc main_arg2))) (Cert.Gcn.row128 (m ((c : Thread nD τ).loc main_arg8)))

/-- The stretch before layer 3's dense region leaves the features and narrows the layer's weights. -/
theorem in_feat2 (c : Dev nD) : W13 m ρ c (Proc.devRef .tc main_v42) = (feat2 m c) := by
  have h : W13 m ρ c (Proc.devRef .tc main_v42) = W12 m ρ c (Proc.devRef .tc main_v42) := by
    show StableHlo.after hostOps4 (W12 m ρ c) (Proc.devRef .tc main_v42) = _
    after_results_simp
  exact h.trans (post_out1 m ρ c)
theorem in_n2 (c : Dev nD) : W13 m ρ c (Proc.devRef .tc main_v11) = (Cert.Gcn.degFactor (m ((c : Thread nD τ).loc main_arg1))) := at13_v11 m ρ c
theorem in_w2 (c : Dev nD) : W13 m ρ c (Proc.devRef .tc main_v43) = (truncf (F := Ideal) (s := S128x128) (φ := .f32) .bf16 (m ((c : Thread nD τ).loc main_arg7)) bitsLt_bf16_f32) := by
  have h : W13 m ρ c (Proc.devRef .tc main_v43) = (truncf (F := Ideal) (s := S128x128) (φ := .f32) .bf16 (W12 m ρ c (Proc.devRef .tc main_arg7)) bitsLt_bf16_f32) := by
    show StableHlo.after hostOps4 (W12 m ρ c) (Proc.devRef .tc main_v43) = _
    after_results_simp <;> rfl
  rw [h, at12_arg7]

/-- The dense region of layer 3 leaves the scaled features times the weights. -/
theorem dense_out2 (c : Dev nD) : W14 m ρ c (Proc.devRef .tc main_v44) = (Cert.Gcn.lin128 (φ := .f32) (feat2 m c) (Cert.Gcn.degFactor (m ((c : Thread nD τ).loc main_arg1))) (m ((c : Thread nD τ).loc main_arg7))) := by
  refine ((W14_arr m ρ c 3).trans (final4 (V13 m ρ) c)).trans ?_
  show Cert.Gcn.lin128 (φ := .bf16) (W13 m ρ c (Proc.devRef .tc main_v42)) (W13 m ρ c (Proc.devRef .tc main_v11)) (W13 m ρ c (Proc.devRef .tc main_v43)) = _
  rw [in_feat2, in_n2, in_w2]
  exact lin128_truncf _ _ _

/-- The stretch after it fetches the source rows and adds them into the target rows … -/
theorem agg_out2 (c : Dev nD) : W15 m ρ c (Proc.devRef .tc main_v54) = (Cert.Gcn.agg128 (Cert.Gcn.lin128 (φ := .f32) (feat2 m c) (Cert.Gcn.degFactor (m ((c : Thread nD τ).loc main_arg1))) (m ((c : Thread nD τ).loc main_arg7))) (m ((c : Thread nD τ).loc main_arg1)) (m ((c : Thread nD τ).loc main_arg2))) := by
  have h : W15 m ρ c (Proc.devRef .tc main_v54) = Cert.Gcn.agg128 (W14 m ρ c (Proc.devRef .tc main_v44)) (W14 m ρ c (Proc.devRef .tc main_arg1)) (W14 m ρ c (Proc.devRef .tc main_arg2)) := by
    show StableHlo.after hostOps5 (W14 m ρ c) (Proc.devRef .tc main_v54) = _
    after_results_simp <;> rfl
  rw [h, dense_out2, at14_arg1, at14_arg2]

/-- … and lays the bias out as a row. -/
theorem bias_out2 (c : Dev nD) : W15 m ρ c (Proc.devRef .tc main_v55) = Cert.Gcn.row128 (m ((c : Thread nD τ).loc main_arg8)) := by
  have h : W15 m ρ c (Proc.devRef .tc main_v55) = shapeCast S1x128 (W14 m ρ c (Proc.devRef .tc main_arg8)) shapeCasts_S128_S1x128 := by
    show StableHlo.after hostOps5 (W14 m ρ c) (Proc.devRef .tc main_v55) = _
    after_results_simp <;> rfl
  rw [h, at14_arg8]
  exact row128_of_reshape _

/-- The closing region of layer 3 leaves the layer's features. -/
theorem post_out2 (c : Dev nD) : W16 m ρ c (Proc.devRef .tc main_v56) = feat3 m c := by
  refine ((W16_arr m ρ c 3).trans (final5 (V15 m ρ) c)).trans ?_
  show Cert.Gcn.post128 (W15 m ρ c (Proc.devRef .tc main_v54)) (W15 m ρ c (Proc.devRef .tc main_v14)) (W15 m ρ c (Proc.devRef .tc main_v55)) = _
  rw [agg_out2, at15_v14, bias_out2]
  rfl

/-- The features after layer 4 (the result), as a function of the arguments. -/
def result (c : Dev nD) : FVec Ideal Cert.ReferenceIdeal.S50000x64 .f32 :=
  Cert.Gcn.post64 (Cert.Gcn.agg64 (Cert.Gcn.lin64 (φ := .f32) (feat3 m c) (Cert.Gcn.degFactor (m ((c : Thread nD τ).loc main_arg1))) (m ((c : Thread nD τ).loc main_arg9))) (m ((c : Thread nD τ).loc main_arg1)) (m ((c : Thread nD τ).loc main_arg2))) (Cert.Gcn.degFactor (m ((c : Thread nD τ).loc main_arg2))) (Cert.Gcn.row64 (m ((c : Thread nD τ).loc main_arg10)))

/-- The stretch before layer 4's dense region leaves the features and narrows the layer's weights. -/
theorem in_feat3 (c : Dev nD) : W17 m ρ c (Proc.devRef .tc main_v56) = (feat3 m c) := by
  have h : W17 m ρ c (Proc.devRef .tc main_v56) = W16 m ρ c (Proc.devRef .tc main_v56) := by
    show StableHlo.after hostOps6 (W16 m ρ c) (Proc.devRef .tc main_v56) = _
    after_results_simp
  exact h.trans (post_out2 m ρ c)
theorem in_n3 (c : Dev nD) : W17 m ρ c (Proc.devRef .tc main_v11) = (Cert.Gcn.degFactor (m ((c : Thread nD τ).loc main_arg1))) := at17_v11 m ρ c
theorem in_w3 (c : Dev nD) : W17 m ρ c (Proc.devRef .tc main_v57) = (truncf (F := Ideal) (s := S128x64) (φ := .f32) .bf16 (m ((c : Thread nD τ).loc main_arg9)) bitsLt_bf16_f32) := by
  have h : W17 m ρ c (Proc.devRef .tc main_v57) = (truncf (F := Ideal) (s := S128x64) (φ := .f32) .bf16 (W16 m ρ c (Proc.devRef .tc main_arg9)) bitsLt_bf16_f32) := by
    show StableHlo.after hostOps6 (W16 m ρ c) (Proc.devRef .tc main_v57) = _
    after_results_simp <;> rfl
  rw [h, at16_arg9]

/-- The dense region of layer 4 leaves the scaled features times the weights. -/
theorem dense_out3 (c : Dev nD) : W18 m ρ c (Proc.devRef .tc main_v58) = (Cert.Gcn.lin64 (φ := .f32) (feat3 m c) (Cert.Gcn.degFactor (m ((c : Thread nD τ).loc main_arg1))) (m ((c : Thread nD τ).loc main_arg9))) := by
  refine ((W18_arr m ρ c 3).trans (final6 (V17 m ρ) c)).trans ?_
  show Cert.Gcn.lin64 (φ := .bf16) (W17 m ρ c (Proc.devRef .tc main_v56)) (W17 m ρ c (Proc.devRef .tc main_v11)) (W17 m ρ c (Proc.devRef .tc main_v57)) = _
  rw [in_feat3, in_n3, in_w3]
  exact lin64_truncf _ _ _

/-- The stretch after it fetches the source rows and adds them into the target rows … -/
theorem agg_out3 (c : Dev nD) : W19 m ρ c (Proc.devRef .tc main_v68) = (Cert.Gcn.agg64 (Cert.Gcn.lin64 (φ := .f32) (feat3 m c) (Cert.Gcn.degFactor (m ((c : Thread nD τ).loc main_arg1))) (m ((c : Thread nD τ).loc main_arg9))) (m ((c : Thread nD τ).loc main_arg1)) (m ((c : Thread nD τ).loc main_arg2))) := by
  have h : W19 m ρ c (Proc.devRef .tc main_v68) = Cert.Gcn.agg64 (W18 m ρ c (Proc.devRef .tc main_v58)) (W18 m ρ c (Proc.devRef .tc main_arg1)) (W18 m ρ c (Proc.devRef .tc main_arg2)) := by
    show StableHlo.after hostOps7 (W18 m ρ c) (Proc.devRef .tc main_v68) = _
    after_results_simp <;> rfl
  rw [h, dense_out3, at18_arg1, at18_arg2]

/-- … and lays the bias out as a row. -/
theorem bias_out3 (c : Dev nD) : W19 m ρ c (Proc.devRef .tc main_v69) = Cert.Gcn.row64 (m ((c : Thread nD τ).loc main_arg10)) := by
  have h : W19 m ρ c (Proc.devRef .tc main_v69) = shapeCast S1x64 (W18 m ρ c (Proc.devRef .tc main_arg10)) shapeCasts_S64_S1x64 := by
    show StableHlo.after hostOps7 (W18 m ρ c) (Proc.devRef .tc main_v69) = _
    after_results_simp <;> rfl
  rw [h, at18_arg10]
  exact row64_of_reshape _

/-- The closing region of layer 4 leaves the layer's features. -/
theorem post_out3 (c : Dev nD) : W20 m ρ c (Proc.devRef .tc main_v70) = result m c := by
  refine ((W20_arr m ρ c 3).trans (final7 (V19 m ρ) c)).trans ?_
  show Cert.Gcn.post64 (W19 m ρ c (Proc.devRef .tc main_v68)) (W19 m ρ c (Proc.devRef .tc main_v14)) (W19 m ρ c (Proc.devRef .tc main_v69)) = _
  rw [agg_out3, at19_v14, bias_out3]
  rfl

/-- The result buffer after the run holds the network of the arguments. -/
theorem result_eq_net (c : Dev nD) : W20 m ρ c (Proc.devRef .tc main_v70)
    = Cert.Gcn.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (post_out3 m ρ c).trans rfl

end Cert.KernelIdeal.Hand

end
-- ==== Proof.lean ====
/-
  A four-layer graph convolution over 50000 nodes and 600000 edges, as a kernel program and as a plain reference. Both
  compute, per node, the inverse square roots of the out-degree and the in-degree (each degree at least one), and then
  four times: scale each node's feature row by its out-degree factor and multiply by the layer's weights; for every edge
  fetch the source node's row and add it into the target node's row; scale each node's row by its in-degree factor, add
  the bias, and (except after the last layer) clamp below at zero.

  The kernel program does the two dense steps of each layer in kernels that walk the nodes 2000 rows at a time, with the
  weights narrowed to a shorter float format, and leaves the edge step to the host; the reference does everything on the
  host. At the ideal values (extended reals, exact operations, formats forgotten) a block of 2000 rows of a product is
  the matching 2000 rows of the whole product, and an entry-by-entry step on a block is the step on the matching rows;
  so each kernel region leaves exactly the array the reference's operations give on the same inputs, the edge step is
  the same host operations in both, and the two results are one function of the arguments. No law of arithmetic beyond
  that is used, so the finiteness of the inputs is never needed.
-/
import proofs.«134169_j66245575573518_1_alg».proof.Defs
import proofs.«134169_j66245575573518_1_alg».proof.Proof.Gen.Kernel
import proofs.«134169_j66245575573518_1_alg».proof.Proof.Gen.Kernel.Frame
import proofs.«134169_j66245575573518_1_alg».proof.Proof.Gen.KernelIdeal
import proofs.«134169_j66245575573518_1_alg».proof.Proof.Gen.KernelIdeal.Frame
import proofs.«134169_j66245575573518_1_alg».proof.Proof.Gen.ReferenceIdeal
import proofs.«134169_j66245575573518_1_alg».proof.Proof.Gen.Pre_finite_inputs
import proofs.«134169_j66245575573518_1_alg».proof.Proof.Gen.ReferenceIdeal.Run
import proofs.«134169_j66245575573518_1_alg».proof.Proof.Net
import proofs.«134169_j66245575573518_1_alg».proof.Proof.RunNamed
import proofs.«134169_j66245575573518_1_alg».proof.Proof.Layers
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs and leaves its arguments alone. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference runs and leaves its arguments alone: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The reference's result is the network of its arguments: its operations, in order, are the network's. -/
theorem reference_eq_net (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v89 (F := Ideal) m' c
      = Cert.Gcn.net (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) := by
  unfold Cert.ReferenceIdeal.Value.res_main_v89
  rfl

/-- The two programs, run at the ideal values from memories that agree on the arguments, end with equal results:
    each result is the network of the arguments. -/
theorem algebraic : Cert.algebraic_KernelIdeal_ReferenceIdeal := by
  intro m ρ m' ρ' _ hagree
  refine ⟨fun c => Cert.KernelIdeal.Gen.W20 m ρ c (Proc.devRef .tc Cert.KernelIdeal.main_v70), Cert.KernelIdeal.Hand.run_named (F := Ideal) m ρ, ?_⟩
  refine (θ_run Cert.ReferenceIdeal.defs _ _).mono (fun _ h c => ⟨(h c).1.trans ?_, (h c).2⟩)
    (Cert.ReferenceIdeal.Value.run (F := Ideal) m' ρ')
  have hk := Cert.KernelIdeal.Hand.result_eq_net m ρ c
  have hr := reference_eq_net m' c
  obtain ⟨e0, e1, e2, e3, e4, e5, e6, e7, e8, e9, e10⟩ := hagree c
  rw [e0, e1, e2, e3, e4, e5, e6, e7, e8, e9, e10] at hr
  exact hr.trans hk.symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
